-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10x128 : Shape := ⟨3, ![256, 10, 128]⟩
abbrev S256x10x7x7x512 : Shape := ⟨5, ![256, 10, 7, 7, 512]⟩
abbrev S512x128 : Shape := ⟨2, ![512, 128]⟩
abbrev S512 : Shape := ⟨1, ![512]⟩
abbrev S512x512 : Shape := ⟨2, ![512, 512]⟩
abbrev S49x512 : Shape := ⟨2, ![49, 512]⟩
abbrev S1x49 : Shape := ⟨2, ![1, 49]⟩
abbrev S_ : Shape := ⟨0, ![]⟩

class Facts : Prop where
  bcast_S_S256x10x128 : S_.BroadcastsInDim S256x10x128 (![] : Fin 0 → Fin S256x10x128.rank)
  reducesTo_S256x10x128_S_d0_1_2 : S256x10x128.ReducesTo [0, 1, 2] S_
  h_S_ : 0 < S_.numel
  bcast_S_S256x10x7x7x512 : S_.BroadcastsInDim S256x10x7x7x512 (![] : Fin 0 → Fin S256x10x7x7x512.rank)
  reducesTo_S256x10x7x7x512_S_d0_1_2_3_4 : S256x10x7x7x512.ReducesTo [0, 1, 2, 3, 4] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S49x512 : S_.BroadcastsInDim S49x512 (![] : Fin 0 → Fin S49x512.rank)
  reducesTo_S49x512_S_d0_1 : S49x512.ReducesTo [0, 1] S_
  bcast_S_S1x49 : S_.BroadcastsInDim S1x49 (![] : Fin 0 → Fin S1x49.rank)
  reducesTo_S1x49_S_d0_1 : S1x49.ReducesTo [0, 1] S_

variable [Facts]

def fn_part2 {F : FTy → Type} [FloatOps F] (main_arg7 : FVec F S49x512 .f32) (main_arg8 : FVec F S1x49 .f32) (main_v33 : IVec S_ 1) : IVec S_ 1 :=
  let main_v34 : FVec F S49x512 .f32 := Host.absf main_arg7
  let main_cst_12 : FVec F S_ .f32 := constant S_ .f32 0x7F800000#32
  let main_v35 : FVec F S49x512 .f32 := broadcastInDim S49x512 ![] bcast_S_S49x512 main_cst_12
  let main_v36 : IVec S49x512 1 := cmpf .olt main_v34 main_v35
  let main_c_13 : IVec S_ 1 := constantI S_ 1 1#1
  let main_v37 : IVec S_ 1 := (fun x v => Host.reduce IntOp.andi x v reducesTo_S49x512_S_d0_1 h_S_) main_v36 main_c_13
  let main_v38 : IVec S_ 1 := andi main_v33 main_v37
  let main_v39 : FVec F S1x49 .f32 := Host.absf main_arg8
  let main_cst_14 : FVec F S_ .f32 := constant S_ .f32 0x7F800000#32
  let main_v40 : FVec F S1x49 .f32 := broadcastInDim S1x49 ![] bcast_S_S1x49 main_cst_14
  let main_v41 : IVec S1x49 1 := cmpf .olt main_v39 main_v40
  let main_c_15 : IVec S_ 1 := constantI S_ 1 1#1
  let main_v42 : IVec S_ 1 := (fun x v => Host.reduce IntOp.andi x v reducesTo_S1x49_S_d0_1 h_S_) main_v41 main_c_15
  let main_v43 : IVec S_ 1 := andi main_v38 main_v42
  main_v43

def fn_part1 {F : FTy → Type} [FloatOps F] (main_arg4 : FVec F S512x512 .f32) (main_arg5 : FVec F S512 .f32) (main_arg6 : FVec F S49x512 .f32) (main_arg7 : FVec F S49x512 .f32) (main_arg8 : FVec F S1x49 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S49x512 .f32 := Host.absf main_arg6
  let main_cst_10 : FVec F S_ .f32 := constant S_ .f32 0x7F800000#32
  let main_v30 : FVec F S49x512 .f32 := broadcastInDim S49x512 ![] bcast_S_S49x512 main_cst_10
  let main_v31 : IVec S49x512 1 := cmpf .olt main_v29 main_v30
  let main_c_11 : IVec S_ 1 := constantI S_ 1 1#1
  let main_v32 : IVec S_ 1 := (fun x v => Host.reduce IntOp.andi x v reducesTo_S49x512_S_d0_1 h_S_) main_v31 main_c_11
  let main_v33 : IVec S_ 1 := andi main_v28 main_v32
  fn_part2 (F := F) main_arg7 main_arg8 main_v33

def fn {F : FTy → Type} [FloatOps F] (main_arg0 : FVec F S256x10x128 .f32) (main_arg1 : FVec F S256x10x7x7x512 .f32) (main_arg2 : FVec F S512x128 .f32) (main_arg3 : FVec F S512 .f32) (main_arg4 : FVec F S512x512 .f32) (main_arg5 : FVec F S512 .f32) (main_arg6 : FVec F S49x512 .f32) (main_arg7 : FVec F S49x512 .f32) (main_arg8 : FVec F S1x49 .f32) : IVec S_ 1 :=
  let main_v0 : FVec F S256x10x128 .f32 := Host.absf main_arg0
  let main_cst : FVec F S_ .f32 := constant S_ .f32 0x7F800000#32
  let main_v1 : FVec F S256x10x128 .f32 := broadcastInDim S256x10x128 ![] bcast_S_S256x10x128 main_cst
  let main_v2 : IVec S256x10x128 1 := cmpf .olt main_v0 main_v1
  let main_c : IVec S_ 1 := constantI S_ 1 1#1
  let main_v3 : IVec S_ 1 := (fun x v => Host.reduce IntOp.andi x v reducesTo_S256x10x128_S_d0_1_2 h_S_) main_v2 main_c
  let main_v4 : FVec F S256x10x7x7x512 .f32 := Host.absf main_arg1
  let main_cst_0 : FVec F S_ .f32 := constant S_ .f32 0x7F800000#32
  let main_v5 : FVec F S256x10x7x7x512 .f32 := broadcastInDim S256x10x7x7x512 ![] bcast_S_S256x10x7x7x512 main_cst_0
  let main_v6 : IVec S256x10x7x7x512 1 := cmpf .olt main_v4 main_v5
  let main_c_1 : IVec S_ 1 := constantI S_ 1 1#1
  let main_v7 : IVec S_ 1 := (fun x v => Host.reduce IntOp.andi x v reducesTo_S256x10x7x7x512_S_d0_1_2_3_4 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S256x10x128 : Shape := ⟨3, ![256, 10, 128]⟩
abbrev S256x10x7x7x512 : Shape := ⟨5, ![256, 10, 7, 7, 512]⟩
abbrev S512x128 : Shape := ⟨2, ![512, 128]⟩
abbrev S512 : Shape := ⟨1, ![512]⟩
abbrev S512x512 : Shape := ⟨2, ![512, 512]⟩
abbrev S49x512 : Shape := ⟨2, ![49, 512]⟩
abbrev S1x49 : Shape := ⟨2, ![1, 49]⟩
abbrev S2560x128 : Shape := ⟨2, ![2560, 128]⟩
abbrev S2560x49x512 : Shape := ⟨3, ![2560, 49, 512]⟩
abbrev S128x512 : Shape := ⟨2, ![128, 512]⟩
abbrev S512x49 : Shape := ⟨2, ![512, 49]⟩
abbrev S49x1 : Shape := ⟨2, ![49, 1]⟩
abbrev S2560x49 : Shape := ⟨2, ![2560, 49]⟩
abbrev S256x128 : Shape := ⟨2, ![256, 128]⟩
abbrev S256x49 : Shape := ⟨2, ![256, 49]⟩
abbrev S256x512 : Shape := ⟨2, ![256, 512]⟩
abbrev S1x512 : Shape := ⟨2, ![1, 512]⟩
abbrev S125440x1 : Shape := ⟨2, ![125440, 1]⟩
abbrev S2560x512 : Shape := ⟨2, ![2560, 512]⟩
abbrev S64x49x512 : Shape := ⟨3, ![64, 49, 512]⟩
abbrev S3136x1 : Shape := ⟨2, ![3136, 1]⟩
abbrev S64x512 : Shape := ⟨2, ![64, 512]⟩
abbrev S3136x512 : Shape := ⟨2, ![3136, 512]⟩
abbrev S3136x49 : Shape := ⟨2, ![3136, 49]⟩
abbrev S64x49x1 : Shape := ⟨3, ![64, 49, 1]⟩
abbrev S64x1 : Shape := ⟨2, ![64, 1]⟩
abbrev S64x1x1 : Shape := ⟨3, ![64, 1, 1]⟩
abbrev S256x10x512 : Shape := ⟨3, ![256, 10, 512]⟩

abbrev nBuf : Space → Nat
  | .hbm => 21
  | .vmem => 17
  | .smem => 0
  | _ => 0

abbrev bufTy : (tb : Table) → Fin (tcTables nBuf tb) → BufTy
  | .hbm, ⟨0, _⟩ => ⟨S256x10x128, .f32⟩
  | .hbm, ⟨1, _⟩ => ⟨S256x10x7x7x512, .f32⟩
  | .hbm, ⟨2, _⟩ => ⟨S512x128, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S49x512, .f32⟩
  | .hbm, ⟨7, _⟩ => ⟨S49x512, .f32⟩
  | .hbm, ⟨8, _⟩ => ⟨S1x49, .f32⟩
  | .hbm, ⟨9, _⟩ => ⟨S2560x128, .f32⟩
  | .hbm, ⟨10, _⟩ => ⟨S2560x49x512, .f32⟩
  | .hbm, ⟨11, _⟩ => ⟨S128x512, .f32⟩
  | .hbm, ⟨12, _⟩ => ⟨S512x49, .f32⟩
  | .hbm, ⟨13, _⟩ => ⟨S512x512, .f32⟩
  | .hbm, ⟨14, _⟩ => ⟨S512x512, .bf16⟩
  | .hbm, ⟨15, _⟩ => ⟨S512x49, .f32⟩
  | .hbm, ⟨16, _⟩ => ⟨S49x1, .f32⟩
  | .hbm, ⟨17, _⟩ => ⟨S2560x49, .f32⟩
  | .hbm, ⟨18, _⟩ => ⟨S125440x1, .f32⟩
  | .hbm, ⟨19, _⟩ => ⟨S2560x512, .f32⟩
  | .hbm, ⟨20, _⟩ => ⟨S256x10x512, .f32⟩
  | .local _ .vmem, ⟨0, _⟩ => ⟨S256x128, .f32⟩
  | .local _ .vmem, ⟨1, _⟩ => ⟨S256x128, .f32⟩
  | .local _ .vmem, ⟨2, _⟩ => ⟨S128x512, .f32⟩
  | .local _ .vmem, ⟨3, _⟩ => ⟨S512, .f32⟩
  | .local _ .vmem, ⟨4, _⟩ => ⟨S512x49, .f32⟩
  | .local _ .vmem, ⟨5, _⟩ => ⟨S256x49, .f32⟩
  | .local _ .vmem, ⟨6, _⟩ => ⟨S256x49, .f32⟩
  | .local _ .vmem, ⟨7, _⟩ => ⟨S64x49x512, .f32⟩
  | .local _ .vmem, ⟨8, _⟩ => ⟨S64x49x512, .f32⟩
  | .local _ .vmem, ⟨9, _⟩ => ⟨S3136x1, .f32⟩
  | .local _ .vmem, ⟨10, _⟩ => ⟨S3136x1, .f32⟩
  | .local _ .vmem, ⟨11, _⟩ => ⟨S512x512, .bf16⟩
  | .local _ .vmem, ⟨12, _⟩ => ⟨S512, .f32⟩
  | .local _ .vmem, ⟨13, _⟩ => ⟨S512x49, .f32⟩
  | .local _ .vmem, ⟨14, _⟩ => ⟨S49x1, .f32⟩
  | .local _ .vmem, ⟨15, _⟩ => ⟨S64x512, .f32⟩
  | .local _ .vmem, ⟨16, _⟩ => ⟨S64x512, .f32⟩
  | _, _ => ⟨S256x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x49x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3136x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x49 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S49x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S256x10x128_S2560x128 : S256x10x128.ShapeCasts S2560x128
  shapeCasts_S256x10x7x7x512_S2560x49x512 : S256x10x7x7x512.ShapeCasts S2560x49x512
  transposes_S512x128_S128x512_1_0 : S512x128.Transposes [1, 0] S128x512
  transposes_S49x512_S512x49_1_0 : S49x512.Transposes [1, 0] S512x49
  transposes_S512x512_S512x512_1_0 : S512x512.Transposes [1, 0] S512x512
  bitsLt_bf16_f32 : FTy.bits .bf16 < FTy.bits .f32
  transposes_S1x49_S49x1_1_0 : S1x49.Transposes [1, 0] S49x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x49_S512x49_0_0 : ∀ a, (![0, 0] : Fin 2 → Nat) a + S512x49.size a ≤ S512x49.size a
  h_S512x49 : 0 < S512x49.numel
  shapeCasts_S512x49_S512x49 : S512x49.ShapeCasts S512x49
  inb_S256x49_S256x49_0_0 : ∀ a, (![0, 0] : Fin 2 → Nat) a + S256x49.size a ≤ S256x49.size a
  h_S256x49 : 0 < S256x49.numel
  shapeCasts_S2560x49_S125440x1 : S2560x49.ShapeCasts S125440x1
  inb_S64x49x512_S64x49x512_0_0_0 : ∀ a, (![0, 0, 0] : Fin 3 → Nat) a + S64x49x512.size a ≤ S64x49x512.size a
  h_S64x49x512 : 0 < S64x49x512.numel
  shapeCasts_S64x49x512_S64x49x512 : S64x49x512.ShapeCasts S64x49x512
  shapeCasts_S64x49x512_S3136x512 : S64x49x512.ShapeCasts S3136x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S3136x512 : S1x512.Broadcasts S3136x512
  inb_S3136x1_S3136x1_0_0 : ∀ a, (![0, 0] : Fin 2 → Nat) a + S3136x1.size a ≤ S3136x1.size a
  h_S3136x1 : 0 < S3136x1.numel
  shapeCasts_S3136x1_S3136x1 : S3136x1.ShapeCasts S3136x1
  broadcasts_S3136x1_S3136x49 : S3136x1.Broadcasts S3136x49
  inb_S49x1_S49x1_0_0 : ∀ a, (![0, 0] : Fin 2 → Nat) a + S49x1.size a ≤ S49x1.size a
  h_S49x1 : 0 < S49x1.numel
  shapeCasts_S49x1_S49x1 : S49x1.ShapeCasts S49x1
  shapeCasts_S3136x1_S64x49x1 : S3136x1.ShapeCasts S64x49x1
  reduces_S64x49x1_S64x1 : S64x49x1.Reduces [1] S64x1
  shapeCasts_S64x1_S64x1x1 : S64x1.ShapeCasts S64x1x1
  broadcasts_S64x1x1_S64x49x1 : S64x1x1.Broadcasts S64x49x1
  broadcasts_S64x49x1_S64x49x512 : S64x49x1.Broadcasts S64x49x512
  reduces_S64x49x512_S64x512 : S64x49x512.Reduces [1] S64x512
  inb_S64x512_S64x512_0_0 : ∀ a, (![0, 0] : Fin 2 → Nat) a + S64x512.size a ≤ S64x512.size a
  h_S64x512 : 0 < S64x512.numel
  shapeCasts_S2560x512_S256x10x512 : S2560x512.ShapeCasts S256x10x512
  dot_S256x128_S128x512_S256x512_1_0_0_1_n_n_wf : DotDims.WF S256x128 S128x512 S256x512 [1] [0] [0] [1] [] []
  dot_S256x512_S512x49_S256x49_1_0_0_1_n_n_wf : DotDims.WF S256x512 S512x49 S256x49 [1] [0] [0] [1] [] []
  dot_S3136x512_S512x512_S3136x512_1_0_0_1_n_n_wf : DotDims.WF S3136x512 S512x512 S3136x512 [1] [0] [0] [1] [] []
  dot_S3136x512_S512x49_S3136x49_1_0_0_1_n_n_wf : DotDims.WF S3136x512 S512x49 S3136x49 [1] [0] [0] [1] [] []
  dot_S3136x49_S49x1_S3136x1_1_0_0_1_n_n_wf : DotDims.WF S3136x49 S49x1 S3136x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2560x128.size a
  hwx0_0 : ∀ i : grid0.Coords, EltTy.bits .f32 = 32 ∨ (Rect.block (s := S2560x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x49.size a ≤ S512x49.size a
  hwx0_3 : ∀ i : grid0.Coords, EltTy.bits .f32 = 32 ∨ (Rect.block (s := S512x49) S512x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x49.size a ≤ S2560x49.size a
  hwx0_4 : ∀ i : grid0.Coords, EltTy.bits .f32 = 32 ∨ (Rect.block (s := S2560x49) S256x49.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x49x512.size a ≤ S2560x49x512.size a
  hwx1_0 : ∀ i : grid1.Coords, EltTy.bits .f32 = 32 ∨ (Rect.block (s := S2560x49x512) S64x49x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3136x1.size a ≤ S125440x1.size a
  hwx1_1 : ∀ i : grid1.Coords, EltTy.bits .f32 = 32 ∨ (Rect.block (s := S125440x1) S3136x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x49.size a ≤ S512x49.size a
  hwx1_4 : ∀ i : grid1.Coords, EltTy.bits .f32 = 32 ∨ (Rect.block (s := S512x49) S512x49.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S49x1.size a ≤ S49x1.size a
  hwx1_5 : ∀ i : grid1.Coords, EltTy.bits .f32 = 32 ∨ (Rect.block (s := S49x1) S49x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S2560x512.size a
  hwx1_6 : ∀ i : grid1.Coords, EltTy.bits .f32 = 32 ∨ (Rect.block (s := S2560x512) S64x512.size (cc1_transform_6 i) (hinb1_6 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x49_S256x49_1_0_0_1_n_n : DotDims S256x512 S512x49 S256x49 where
  lhsContracting := [1]
  rhsContracting := [0]
  lhsNonContracting := [0]
  rhsNonContracting := [1]
  lhsBatch := []
  rhsBatch := []
  wf := dot_S256x512_S512x49_S256x49_1_0_0_1_n_n_wf
def dot_S3136x512_S512x512_S3136x512_1_0_0_1_n_n : DotDims S3136x512 S512x512 S3136x512 where
  lhsContracting := [1]
  rhsContracting := [0]
  lhsNonContracting := [0]
  rhsNonContracting := [1]
  lhsBatch := []
  rhsBatch := []
  wf := dot_S3136x512_S512x512_S3136x512_1_0_0_1_n_n_wf
def dot_S3136x512_S512x49_S3136x49_1_0_0_1_n_n : DotDims S3136x512 S512x49 S3136x49 where
  lhsContracting := [1]
  rhsContracting := [0]
  lhsNonContracting := [0]
  rhsNonContracting := [1]
  lhsBatch := []
  rhsBatch := []
  wf := dot_S3136x512_S512x49_S3136x49_1_0_0_1_n_n_wf
def dot_S3136x49_S49x1_S3136x1_1_0_0_1_n_n : DotDims S3136x49 S49x1 S3136x1 where
  lhsContracting := [1]
  rhsContracting := [0]
  lhsNonContracting := [0]
  rhsNonContracting := [1]
  lhsBatch := []
  rhsBatch := []
  wf := dot_S3136x49_S49x1_S3136x1_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x49.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S64x49x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S3136x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x49.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S49x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S64x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x10x128 : Shape := ⟨3, ![256, 10, 128]⟩
abbrev S256x10x7x7x512 : Shape := ⟨5, ![256, 10, 7, 7, 512]⟩
abbrev S512x128 : Shape := ⟨2, ![512, 128]⟩
abbrev S512 : Shape := ⟨1, ![512]⟩
abbrev S512x512 : Shape := ⟨2, ![512, 512]⟩
abbrev S49x512 : Shape := ⟨2, ![49, 512]⟩
abbrev S1x49 : Shape := ⟨2, ![1, 49]⟩
abbrev S2560x128 : Shape := ⟨2, ![2560, 128]⟩
abbrev S2560x49x512 : Shape := ⟨3, ![2560, 49, 512]⟩
abbrev S128x512 : Shape := ⟨2, ![128, 512]⟩
abbrev S2560x512 : Shape := ⟨2, ![2560, 512]⟩
abbrev S1x512 : Shape := ⟨2, ![1, 512]⟩
abbrev S_ : Shape := ⟨0, ![]⟩
abbrev S1x1x512 : Shape := ⟨3, ![1, 1, 512]⟩
abbrev S512x49 : Shape := ⟨2, ![512, 49]⟩
abbrev S2560x49 : Shape := ⟨2, ![2560, 49]⟩
abbrev S2560x49x49 : Shape := ⟨3, ![2560, 49, 49]⟩
abbrev S2560x49x1 : Shape := ⟨3, ![2560, 49, 1]⟩
abbrev S2560x1 : Shape := ⟨2, ![2560, 1]⟩
abbrev S2560x1x1 : Shape := ⟨3, ![2560, 1, 1]⟩
abbrev S2560x1x49 : Shape := ⟨3, ![2560, 1, 49]⟩
abbrev S2560x1x512 : Shape := ⟨3, ![2560, 1, 512]⟩
abbrev S256x10x512 : Shape := ⟨3, ![256, 10, 512]⟩

abbrev nBuf : Space → Nat
  | .hbm => 51
  | .vmem => 0
  | .smem => 0
  | _ => 0

abbrev bufTy : (tb : Table) → Fin (tcTables nBuf tb) → BufTy
  | .hbm, ⟨0, _⟩ => ⟨S256x10x128, .f32⟩
  | .hbm, ⟨1, _⟩ => ⟨S256x10x7x7x512, .f32⟩
  | .hbm, ⟨2, _⟩ => ⟨S512x128, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S49x512, .f32⟩
  | .hbm, ⟨7, _⟩ => ⟨S49x512, .f32⟩
  | .hbm, ⟨8, _⟩ => ⟨S1x49, .f32⟩
  | .hbm, ⟨9, _⟩ => ⟨S2560x128, .f32⟩
  | .hbm, ⟨10, _⟩ => ⟨S2560x49x512, .f32⟩
  | .hbm, ⟨11, _⟩ => ⟨S128x512, .f32⟩
  | .hbm, ⟨12, _⟩ => ⟨S2560x512, .f32⟩
  | .hbm, ⟨13, _⟩ => ⟨S1x512, .f32⟩
  | .hbm, ⟨14, _⟩ => ⟨S2560x512, .f32⟩
  | .hbm, ⟨15, _⟩ => ⟨S2560x512, .f32⟩
  | .hbm, ⟨16, _⟩ => ⟨S_, .f32⟩
  | .hbm, ⟨17, _⟩ => ⟨S2560x512, .f32⟩
  | .hbm, ⟨18, _⟩ => ⟨S2560x512, .f32⟩
  | .hbm, ⟨19, _⟩ => ⟨S2560x49x512, .f32⟩
  | .hbm, ⟨20, _⟩ => ⟨S1x1x512, .f32⟩
  | .hbm, ⟨21, _⟩ => ⟨S2560x49x512, .f32⟩
  | .hbm, ⟨22, _⟩ => ⟨S2560x49x512, .f32⟩
  | .hbm, ⟨23, _⟩ => ⟨S_, .f32⟩
  | .hbm, ⟨24, _⟩ => ⟨S2560x49x512, .f32⟩
  | .hbm, ⟨25, _⟩ => ⟨S2560x49x512, .f32⟩
  | .hbm, ⟨26, _⟩ => ⟨S512x49, .f32⟩
  | .hbm, ⟨27, _⟩ => ⟨S2560x49, .f32⟩
  | .hbm, ⟨28, _⟩ => ⟨S2560x49x49, .f32⟩
  | .hbm, ⟨29, _⟩ => ⟨S2560x49x1, .f32⟩
  | .hbm, ⟨30, _⟩ => ⟨S2560x49x49, .f32⟩
  | .hbm, ⟨31, _⟩ => ⟨S2560x49x49, .f32⟩
  | .hbm, ⟨32, _⟩ => ⟨S2560x49x49, .f32⟩
  | .hbm, ⟨33, _⟩ => ⟨S2560x49x1, .f32⟩
  | .hbm, ⟨34, _⟩ => ⟨S_, .f32⟩
  | .hbm, ⟨35, _⟩ => ⟨S2560x1, .f32⟩
  | .hbm, ⟨36, _⟩ => ⟨S_, .f32⟩
  | .hbm, ⟨37, _⟩ => ⟨S2560x1, .f32⟩
  | .hbm, ⟨38, _⟩ => ⟨S2560x1, .f32⟩
  | .hbm, ⟨39, _⟩ => ⟨S2560x1x1, .f32⟩
  | .hbm, ⟨40, _⟩ => ⟨S2560x49x1, .f32⟩
  | .hbm, ⟨41, _⟩ => ⟨S2560x49x1, .f32⟩
  | .hbm, ⟨42, _⟩ => ⟨S2560x49x1, .f32⟩
  | .hbm, ⟨43, _⟩ => ⟨S_, .f32⟩
  | .hbm, ⟨44, _⟩ => ⟨S2560x1, .f32⟩
  | .hbm, ⟨45, _⟩ => ⟨S2560x1x1, .f32⟩
  | .hbm, ⟨46, _⟩ => ⟨S2560x49x1, .f32⟩
  | .hbm, ⟨47, _⟩ => ⟨S2560x49x1, .f32⟩
  | .hbm, ⟨48, _⟩ => ⟨S2560x1x49, .f32⟩
  | .hbm, ⟨49, _⟩ => ⟨S2560x1x512, .f32⟩
  | .hbm, ⟨50, _⟩ => ⟨S256x10x512, .f32⟩
  | _, _ => ⟨S256x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_cst : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  shapeCasts_S256x10x128_S2560x128 : S256x10x128.ShapeCasts S2560x128
  shapeCasts_S256x10x7x7x512_S2560x49x512 : S256x10x7x7x512.ShapeCasts S2560x49x512
  transposes_S512x128_S128x512_1_0 : S512x128.Transposes [1, 0] S128x512
  bcast_S512_S1x512_1 : S512.BroadcastsInDim S1x512 (![1] : Fin 1 → Fin S1x512.rank)
  bcast_S1x512_S2560x512_0_1 : S1x512.BroadcastsInDim S2560x512 (![0, 1] : Fin 2 → Fin S2560x512.rank)
  bcast_S_S2560x512 : S_.BroadcastsInDim S2560x512 (![] : Fin 0 → Fin S2560x512.rank)
  bcast_S512_S1x1x512_2 : S512.BroadcastsInDim S1x1x512 (![2] : Fin 1 → Fin S1x1x512.rank)
  bcast_S1x1x512_S2560x49x512_0_1_2 : S1x1x512.BroadcastsInDim S2560x49x512 (![0, 1, 2] : Fin 3 → Fin S2560x49x512.rank)
  bcast_S_S2560x49x512 : S_.BroadcastsInDim S2560x49x512 (![] : Fin 0 → Fin S2560x49x512.rank)
  transposes_S49x512_S512x49_1_0 : S49x512.Transposes [1, 0] S512x49
  bcast_S2560x49_S2560x49x1_0_1 : S2560x49.BroadcastsInDim S2560x49x1 (![0, 1] : Fin 2 → Fin S2560x49x1.rank)
  bcast_S2560x49x1_S2560x49x49_0_1_2 : S2560x49x1.BroadcastsInDim S2560x49x49 (![0, 1, 2] : Fin 3 → Fin S2560x49x49.rank)
  reducesTo_S2560x49x1_S2560x1_d1 : S2560x49x1.ReducesTo [1] S2560x1
  h_S_ : 0 < S_.numel
  bcast_S_S2560x1 : S_.BroadcastsInDim S2560x1 (![] : Fin 0 → Fin S2560x1.rank)
  bcast_S2560x1_S2560x1x1_0_2 : S2560x1.BroadcastsInDim S2560x1x1 (![0, 2] : Fin 2 → Fin S2560x1x1.rank)
  bcast_S2560x1x1_S2560x49x1_0_1_2 : S2560x1x1.BroadcastsInDim S2560x49x1 (![0, 1, 2] : Fin 3 → Fin S2560x49x1.rank)
  shapeCasts_S2560x49x1_S2560x1x49 : S2560x49x1.ShapeCasts S2560x1x49
  shapeCasts_S2560x1x512_S256x10x512 : S2560x1x512.ShapeCasts S256x10x512
  dot_S2560x128_S128x512_S2560x512_1_0_0_1_n_n_wf : DotDims.WF S2560x128 S128x512 S2560x512 [1] [0] [0] [1] [] []
  dot_S2560x49x512_S512x512_S2560x49x512_2_1_01_0_n_n_wf : DotDims.WF S2560x49x512 S512x512 S2560x49x512 [2] [1] [0, 1] [0] [] []
  dot_S2560x512_S512x49_S2560x49_1_0_0_1_n_n_wf : DotDims.WF S2560x512 S512x49 S2560x49 [1] [0] [0] [1] [] []
  dot_S2560x49x512_S49x512_S2560x49x49_2_1_01_0_n_n_wf : DotDims.WF S2560x49x512 S49x512 S2560x49x49 [2] [1] [0, 1] [0] [] []
  dot_S2560x49x49_S1x49_S2560x49x1_2_1_01_0_n_n_wf : DotDims.WF S2560x49x49 S1x49 S2560x49x1 [2] [1] [0, 1] [0] [] []
  dot_S2560x1x49_S2560x49x512_S2560x1x512_2_1_1_2_0_0_wf : DotDims.WF S2560x1x49 S2560x49x512 S2560x1x512 [2] [1] [1] [2] [0] [0]

variable [Facts₀]

def dot_S2560x128_S128x512_S2560x512_1_0_0_1_n_n : DotDims S2560x128 S128x512 S2560x512 where
  lhsContracting := [1]
  rhsContracting := [0]
  lhsNonContracting := [0]
  rhsNonContracting := [1]
  lhsBatch := []
  rhsBatch := []
  wf := dot_S2560x128_S128x512_S2560x512_1_0_0_1_n_n_wf
def dot_S2560x49x512_S512x512_S2560x49x512_2_1_01_0_n_n : DotDims S2560x49x512 S512x512 S2560x49x512 where
  lhsContracting := [2]
  rhsContracting := [1]
  lhsNonContracting := [0, 1]
  rhsNonContracting := [0]
  lhsBatch := []
  rhsBatch := []
  wf := dot_S2560x49x512_S512x512_S2560x49x512_2_1_01_0_n_n_wf
def dot_S2560x512_S512x49_S2560x49_1_0_0_1_n_n : DotDims S2560x512 S512x49 S2560x49 where
  lhsContracting := [1]
  rhsContracting := [0]
  lhsNonContracting := [0]
  rhsNonContracting := [1]
  lhsBatch := []
  rhsBatch := []
  wf := dot_S2560x512_S512x49_S2560x49_1_0_0_1_n_n_wf
def dot_S2560x49x512_S49x512_S2560x49x49_2_1_01_0_n_n : DotDims S2560x49x512 S49x512 S2560x49x49 where
  lhsContracting := [2]
  rhsContracting := [1]
  lhsNonContracting := [0, 1]
  rhsNonContracting := [0]
  lhsBatch := []
  rhsBatch := []
  wf := dot_S2560x49x512_S49x512_S2560x49x49_2_1_01_0_n_n_wf
def dot_S2560x49x49_S1x49_S2560x49x1_2_1_01_0_n_n : DotDims S2560x49x49 S1x49 S2560x49x1 where
  lhsContracting := [2]
  rhsContracting := [1]
  lhsNonContracting := [0, 1]
  rhsNonContracting := [0]
  lhsBatch := []
  rhsBatch := []
  wf := dot_S2560x49x49_S1x49_S2560x49x1_2_1_01_0_n_n_wf
def dot_S2560x1x49_S2560x49x512_S2560x1x512_2_1_1_2_0_0 : DotDims S2560x1x49 S2560x49x512 S2560x1x512 where
  lhsContracting := [2]
  rhsContracting := [1]
  lhsNonContracting := [1]
  rhsNonContracting := [2]
  lhsBatch := [0]
  rhsBatch := [0]
  wf := dot_S2560x1x49_S2560x49x512_S2560x1x512_2_1_1_2_0_0_wf

class Facts : Prop extends Facts₀ where

variable [Facts]
-- ==== Proof.KernelRun.lean ====
/-
  The idealized kernel's whole run with its result named.

  The program is three stretches of host operations around two pipelined regions. Its execution from any launch memory
  terminates without a fault, and in every final state each unscoped buffer holds the contents of the last boundary of
  that chain — the fold `W5` of the three stretches and the two regions' write-backs over the launch memory. Read at the
  nine arguments that fold walks back to the launch contents; read at the result buffer it is the last reshape of what
  the second region leaves in its output array. This module states exactly that: the result at `W5`, the arguments kept.
-/
import proofs.«172738_j79972291051647_2_alg».proof.Proof.Gen.KernelIdeal.Frame

set_option maxRecDepth 16384

noncomputable section

namespace Cert.KernelIdeal.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the nine argument arrays as launched. -/
theorem run_result : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.AttnRun

end
-- ==== Proof.Entry.lean ====
/-
  What the two regions find in their arrays, and what the last reshape returns.

  Before the first region the host flattens the audio to [2560, 128] and the visual input to [2560, 49, 512] and
  transposes the weight matrices (the visual layer's also changes format, which is the identity on exact values).
  Between the regions it flattens the [2560, 49] audio scores the first region wrote to a column [125440, 1]; every
  other buffer the second region reads is still what the first stretch made it. After the second region it reshapes
  the [2560, 512] output to [256, 10, 512].
-/
import proofs.«172738_j79972291051647_2_alg».proof.Proof.Gen.KernelIdeal.Frame
import Idealize.ShloMosaic.Lib.StableHlo.Run
import Idealize.ShloMosaic.PureOps.Ideal

set_option maxRecDepth 16384

noncomputable section

namespace Cert.KernelIdeal.Arrays

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The first region's arrays -/

/-- The audio rows: the audio input flattened to [2560, 128]. -/
theorem entry_aud (c : Dev nD) : (V1 m ρ c main_v0 : S2560x128.Idx → EReal)
    = shapeCast S2560x128 (m ((c : Thread nD τ).loc main_arg0)) shapeCasts_S256x10x128_S2560x128 := by
  show StableHlo.after hostOps0 (W0 m ρ c) (Proc.devRef .tc main_v0) = _
  after_results
  rfl

/-- The first layer's weights, transposed. -/
theorem entry_waT (c : Dev nD) : (V1 m ρ c main_v2 : S128x512.Idx → EReal)
    = transpose S128x512 [1, 0] (m ((c : Thread nD τ).loc main_arg2)) transposes_S512x128_S128x512_1_0 := by
  show StableHlo.after hostOps0 (W0 m ρ c) (Proc.devRef .tc main_v2) = _
  after_results

/-- The first layer's bias, as given. -/
theorem entry_ba (c : Dev nD) : (V1 m ρ c main_arg3 : S512.Idx → EReal) = m ((c : Thread nD τ).loc main_arg3) := by
  show StableHlo.after hostOps0 (W0 m ρ c) (Proc.devRef .tc main_arg3) = _
  after_results

/-- The audio score weights, transposed. -/
theorem entry_aaT (c : Dev nD) : (V1 m ρ c main_v3 : S512x49.Idx → EReal)
    = transpose S512x49 [1, 0] (m ((c : Thread nD τ).loc main_arg6)) transposes_S49x512_S512x49_1_0 := by
  show StableHlo.after hostOps0 (W0 m ρ c) (Proc.devRef .tc main_v3) = _
  after_results

/-! ## The second region's arrays -/

/-- The visual rows: the visual input flattened to [2560, 49, 512]; the first region and the stretch between leave
    it alone. -/
theorem entry_vis (c : Dev nD) : (V3 m ρ c main_v1 : S2560x49x512.Idx → EReal)
    = shapeCast S2560x49x512 (m ((c : Thread nD τ).loc main_arg1)) shapeCasts_S256x10x7x7x512_S2560x49x512 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  rfl

/-- The audio scores as a column: what the first region leaves in its output array, flattened to [125440, 1]. -/
theorem entry_scores (c : Dev nD) : (V3 m ρ c main_v9 : S125440x1.Idx → EReal)
    = shapeCast S125440x1 ((dat0 (V1 m ρ) c).arrAt 4 cfg0.N : S2560x49.Idx → EReal) shapeCasts_S2560x49_S125440x1 := by
  show StableHlo.after hostOps1 (W2 m ρ c) (Proc.devRef .tc main_v9) = _
  after_results
  exact congrArg (fun x : S2560x49.Idx → EReal => shapeCast S125440x1 x shapeCasts_S2560x49_S125440x1) (W2_arr m ρ c 4)

/-- The visual layer's weights, transposed (and changed of format: nothing, on exact values). -/
theorem entry_wvT (c : Dev nD) : (V3 m ρ c main_v5 : S512x512.Idx → EReal)
    = truncf (F := Ideal) .bf16 (transpose S512x512 [1, 0] (m ((c : Thread nD τ).loc main_arg4)) transposes_S512x512_S512x512_1_0) bitsLt_bf16_f32 := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results

/-- The visual layer's bias, as given. -/
theorem entry_bv (c : Dev nD) : (V3 m ρ c main_arg5 : S512.Idx → EReal) = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

/-- The visual score weights, transposed. -/
theorem entry_avT (c : Dev nD) : (V3 m ρ c main_v6 : S512x49.Idx → EReal)
    = transpose S512x49 [1, 0] (m ((c : Thread nD τ).loc main_arg7)) transposes_S49x512_S512x49_1_0 := by
  show StableHlo.after hostOps1 (W2 m ρ c) (Proc.devRef .tc main_v6) = _
  after_results
  rw [W2_of_ne m ρ c main_v6 (by decide)]
  show StableHlo.after hostOps0 (W0 m ρ c) (Proc.devRef .tc main_v6) = _
  after_results

/-- The final projection, transposed to a column. -/
theorem entry_afT (c : Dev nD) : (V3 m ρ c main_v7 : S49x1.Idx → EReal)
    = transpose S49x1 [1, 0] (m ((c : Thread nD τ).loc main_arg8)) transposes_S1x49_S49x1_1_0 := by
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results

/-! ## The result -/

/-- The result buffer: what the second region leaves in its output array, reshaped to [256, 10, 512]. -/
theorem exit_result (c : Dev nD) : (W5 m ρ c (Proc.devRef .tc main_v11) : S256x10x512.Idx → EReal)
    = shapeCast S256x10x512 ((dat1 (V3 m ρ) c).arrAt 6 cfg1.N : S2560x512.Idx → EReal) shapeCasts_S2560x512_S256x10x512 := by
  show StableHlo.after hostOps2 (W4 m ρ c) (Proc.devRef .tc main_v11) = _
  after_results
  exact congrArg (fun x : S2560x512.Idx → EReal => shapeCast S256x10x512 x shapeCasts_S2560x512_S256x10x512) (W4_arr m ρ c 6)

end Cert.KernelIdeal.Arrays

end
-- ==== Proof.Spec.lean ====
/-
  The mathematics of additive audio-visual attention, one output row at a time, on the extended reals.

  For a row `n` (one of the 2560 batch-time positions) the audio side gives 49 scores
  `a s = ∑ e, relu (⟨aud n, Wa e⟩ + ba e) · Aa s e` (`audioScore`). The visual side has 49 spatial positions
  `s`, each a vector `v s` of 512 features; its logit is
  `ℓ s = ∑ f, tanh (a s + ∑ e, relu (⟨v s, Wv e⟩ + bv e) · Av f e) · Af f` (`logit`), the attention weights are the
  softmax of `ℓ` over `s` taken the stable way (`exp (ℓ s − max ℓ) / ∑ exp (ℓ s' − max ℓ)`), and the output row
  is the weighted sum `∑ s, w s · v s d` (`attend`).

  Everything is a function of plain `Fin`-indexed families, so a tiling of the rows, a flattening of (row, position)
  pairs, or a transposed copy of a weight matrix changes only the families handed in, never these formulas. The zero
  of `relu` and the `−∞` the maximum starts from stay the f32 patterns both programs print; nothing here evaluates them.
-/
import Idealize.ShloMosaic.PureOps.Ideal
import Idealize.ShloMosaic.Lib.ValueIdx

noncomputable section

namespace Cert.Attn

open Idealize.ShloMosaic Idealize.ShloMosaic.ValueIdx

/-- The audio score of spatial position `s` for one row: `∑ e, relu (⟨a, wa e⟩ + ba e) · aa s e`. -/
def audioScore (a : Fin 128 → EReal) (wa : Fin 512 → Fin 128 → EReal) (ba : Fin 512 → EReal)
    (aa : Fin 49 → Fin 512 → EReal) (s : Fin 49) : EReal :=
  ∑ e : Fin 512, max ((∑ k : Fin 128, a k * wa e k) + ba e) (Ideal.ofBits .f32 0x00000000#32) * aa s e

/-- The attention logit of one spatial position with features `v` and audio score `a`:
    `∑ f, tanh (a + ∑ e, relu (⟨v, wv e⟩ + bv e) · av f e) · af f`. -/
def logit (v : Fin 512 → EReal) (a : EReal) (wv : Fin 512 → Fin 512 → EReal) (bv : Fin 512 → EReal)
    (av : Fin 49 → Fin 512 → EReal) (af : Fin 49 → EReal) : EReal :=
  ∑ f : Fin 49, Ideal.tanh (a + ∑ e : Fin 512,
    max ((∑ d : Fin 512, v d * wv e d) + bv e) (Ideal.ofBits .f32 0x00000000#32) * av f e) * af f

/-- The largest logit of a row, folded from the f32 `−∞` pattern. -/
def logitMax (v : Fin 49 → Fin 512 → EReal) (a : Fin 49 → EReal) (wv : Fin 512 → Fin 512 → EReal)
    (bv : Fin 512 → EReal) (av : Fin 49 → Fin 512 → EReal) (af : Fin 49 → EReal) : EReal :=
  (Finset.univ : Finset (Fin 49)).fold max (Ideal.ofBits .f32 0xFF800000#32) (fun s => logit (v s) (a s) wv bv av af)

/-- The shifted exponential of position `s`'s logit: `exp (ℓ s − max ℓ)`. -/
def expShift (v : Fin 49 → Fin 512 → EReal) (a : Fin 49 → EReal) (wv : Fin 512 → Fin 512 → EReal)
    (bv : Fin 512 → EReal) (av : Fin 49 → Fin 512 → EReal) (af : Fin 49 → EReal) (s : Fin 49) : EReal :=
  Ideal.exp (logit (v s) (a s) wv bv av af - logitMax v a wv bv av af)

/-- The softmax weight of position `s`. -/
def weight (v : Fin 49 → Fin 512 → EReal) (a : Fin 49 → EReal) (wv : Fin 512 → Fin 512 → EReal)
    (bv : Fin 512 → EReal) (av : Fin 49 → Fin 512 → EReal) (af : Fin 49 → EReal) (s : Fin 49) : EReal :=
  Ideal.div (expShift v a wv bv av af s) (∑ s' : Fin 49, expShift v a wv bv av af s')

/-- Feature `d` of the attended row: `∑ s, weight s · v s d`. -/
def attend (v : Fin 49 → Fin 512 → EReal) (a : Fin 49 → EReal) (wv : Fin 512 → Fin 512 → EReal)
    (bv : Fin 512 → EReal) (av : Fin 49 → Fin 512 → EReal) (af : Fin 49 → EReal) (d : Fin 512) : EReal :=
  ∑ s : Fin 49, weight v a wv bv av af s * v s d

/-! ## The whole arrays -/

/-- The [2560, 49] array of audio scores, from the flattened audio [2560, 128] and the weights as given. -/
def scoreArr (aud : (⟨2, ![2560, 128]⟩ : Shape).Idx → EReal) (Wa : (⟨2, ![512, 128]⟩ : Shape).Idx → EReal)
    (ba : (⟨1, ![512]⟩ : Shape).Idx → EReal) (Aa : (⟨2, ![49, 512]⟩ : Shape).Idx → EReal)
    (n : Fin 2560) (s : Fin 49) : EReal :=
  audioScore (fun k => aud (ix2 n k)) (fun e k => Wa (ix2 e k)) (fun e => ba (ix1 e)) (fun s' e => Aa (ix2 s' e)) s

/-- The [2560, 512] array of attended rows, from the flattened audio [2560, 128], the flattened visual
    [2560, 49, 512] and the weights as given. -/
def outArr (aud : (⟨2, ![2560, 128]⟩ : Shape).Idx → EReal) (vis : (⟨3, ![2560, 49, 512]⟩ : Shape).Idx → EReal)
    (Wa : (⟨2, ![512, 128]⟩ : Shape).Idx → EReal) (ba : (⟨1, ![512]⟩ : Shape).Idx → EReal)
    (Wv : (⟨2, ![512, 512]⟩ : Shape).Idx → EReal) (bv : (⟨1, ![512]⟩ : Shape).Idx → EReal)
    (Aa : (⟨2, ![49, 512]⟩ : Shape).Idx → EReal) (Av : (⟨2, ![49, 512]⟩ : Shape).Idx → EReal)
    (Af : (⟨2, ![1, 49]⟩ : Shape).Idx → EReal) (n : Fin 2560) (d : Fin 512) : EReal :=
  attend (fun s d' => vis (ix3 n s d')) (fun s => scoreArr aud Wa ba Aa n s) (fun e d' => Wv (ix2 e d'))
    (fun e => bv (ix1 e)) (fun f e => Av (ix2 f e)) (fun f => Af (ix2 0 f)) d

/-- Row `b · 10 + t` of the flattened arrays is batch `b`, time `t`. -/
def rowOf (b : Fin 256) (t : Fin 10) : Fin 2560 := ⟨b.val * 10 + t.val, by have := b.isLt; have := t.isLt; omega⟩

/-- The result [256, 10, 512]: entry (b, t, d) is feature `d` of attended row `b · 10 + t`. -/
def result (aud : (⟨2, ![2560, 128]⟩ : Shape).Idx → EReal) (vis : (⟨3, ![2560, 49, 512]⟩ : Shape).Idx → EReal)
    (Wa : (⟨2, ![512, 128]⟩ : Shape).Idx → EReal) (ba : (⟨1, ![512]⟩ : Shape).Idx → EReal)
    (Wv : (⟨2, ![512, 512]⟩ : Shape).Idx → EReal) (bv : (⟨1, ![512]⟩ : Shape).Idx → EReal)
    (Aa : (⟨2, ![49, 512]⟩ : Shape).Idx → EReal) (Av : (⟨2, ![49, 512]⟩ : Shape).Idx → EReal)
    (Af : (⟨2, ![1, 49]⟩ : Shape).Idx → EReal) : (⟨3, ![256, 10, 512]⟩ : Shape).Idx → EReal :=
  fun i => outArr aud vis Wa ba Wv bv Aa Av Af (rowOf (i 0) (i 1)) (i 2)

theorem result_ix3 (aud : (⟨2, ![2560, 128]⟩ : Shape).Idx → EReal) (vis : (⟨3, ![2560, 49, 512]⟩ : Shape).Idx → EReal)
    (Wa : (⟨2, ![512, 128]⟩ : Shape).Idx → EReal) (ba : (⟨1, ![512]⟩ : Shape).Idx → EReal)
    (Wv : (⟨2, ![512, 512]⟩ : Shape).Idx → EReal) (bv : (⟨1, ![512]⟩ : Shape).Idx → EReal)
    (Aa : (⟨2, ![49, 512]⟩ : Shape).Idx → EReal) (Av : (⟨2, ![49, 512]⟩ : Shape).Idx → EReal)
    (Af : (⟨2, ![1, 49]⟩ : Shape).Idx → EReal) (b : Fin 256) (t : Fin 10) (d : Fin 512) :
    result aud vis Wa ba Wv bv Aa Av Af (ix3 b t d) = outArr aud vis Wa ba Wv bv Aa Av Af (rowOf b t) d := rfl

end Cert.Attn

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.DenseRelu.lean ====
/-
  A dense layer followed by relu, read at one entry, at the exact (extended-real) values.

  For an m×k matrix A, a k×n matrix B and a bias row b of length n, the array
  `max (A · B + b, 0)` — the product taken into a zero accumulator, the bias added to every row, the maximum with the
  zero splat — has at (a, e) the value `max ((∑ c, A (a, c) · B (c, e)) + b e) 0`. The zero stays the f32 pattern the
  programs print.
-/
import proofs.«172738_j79972291051647_2_alg».proof.Proof.LibPlainMatmul
import Idealize.ShloMosaic.Lib.ValueLayout
import Idealize.ShloMosaic.Lib.Pipeline.Value

noncomputable section

namespace Cert.Attn

open Idealize.ShloMosaic Idealize.ShloMosaic.ValueIdx

/-- Entry (a, e) of `max (A · B + b, 0)` is `max ((∑ c, A (a, c) · B (c, e)) + b e) 0`. -/
theorem dense_relu_apply {m k n : Nat} {φ₁ φ₂ : FTy} (prec : Option ContractPrecision)
    (A : FVec Ideal ⟨2, ![m, k]⟩ φ₁) (B : FVec Ideal ⟨2, ![k, n]⟩ φ₂) (b : FVec Ideal ⟨1, ![n]⟩ .f32)
    (hc : (⟨1, ![n]⟩ : Shape).ShapeCasts ⟨2, ![1, n]⟩) (hb : (⟨2, ![1, n]⟩ : Shape).Broadcasts ⟨2, ![m, n]⟩)
    (a : Fin m) (e : Fin n) :
    maximumf (addf (matmul (DotDims.plain m k n) prec A B (constant ⟨2, ![m, n]⟩ .f32 0x00000000#32))
        (broadcastTo ⟨2, ![m, n]⟩ (shapeCast ⟨2, ![1, n]⟩ b hc) hb))
      (broadcast ⟨2, ![m, n]⟩ (Scalar.ofBits .f32 0x00000000#32)) (ix2 a e)
      = max ((∑ c : Fin k, A (ix2 a c) * B (ix2 c e)) + b (ix1 e)) (Ideal.ofBits .f32 0x00000000#32) := by
  rw [maximumf_apply, addf_apply, matmul_plain_zero_apply, broadcastTo_1b_ab_apply, shapeCast_a_1a_apply]
  rfl

end Cert.Attn

end
-- ==== Proof.ScoreBlock.lean ====
/-
  The first kernel's block: the audio scores of 256 rows.

  The body loads a [256, 128] block of audio rows, the transposed first-layer weights [128, 512], the bias [512] and
  the transposed score weights [512, 49], and stores `relu (X · Waᵀ + ba) · Aaᵀ`. At (r, s) that is the audio score of
  position `s` for the block's row `r`, the weights read back through their transposes.
-/
import proofs.«172738_j79972291051647_2_alg».proof.Proof.Gen.KernelIdeal.Skeleton
import proofs.«172738_j79972291051647_2_alg».proof.Proof.Spec
import proofs.«172738_j79972291051647_2_alg».proof.Proof.DenseRelu

noncomputable section

namespace Cert.KernelIdeal.BlockValue

open Cert.KernelIdeal Cert.KernelIdeal.Gen Cert.Attn Idealize.ShloMosaic Idealize.ShloMosaic.ValueIdx

/-- The stored value at (r, s) is `∑ e, relu (⟨x0 r, x1 · e⟩ + x2 e) · x3 (e, s)`: the audio score of position `s`
    for row `r`, with `x1` and `x3` the transposed weight matrices. -/
theorem scoreBlock (x0 : Vec Ideal S256x128 .f32) (x1 : Vec Ideal S128x512 .f32) (x2 : Vec Ideal S512 .f32)
    (x3 : Vec Ideal S512x49 .f32) (r : Fin 256) (s : Fin 49) :
    k0_pay1 (F := Ideal) x0 x1 x2 x3 (ix2 r s)
      = audioScore (fun k => x0 (ix2 r k)) (fun e k => x1 (ix2 k e)) (fun e => x2 (ix1 e)) (fun s' e => x3 (ix2 e s')) s := by
  unfold k0_pay1
  simp only [shapeCast_self]
  refine (matmul_plain_zero_apply (some .fp32) _ x3 r s).trans ?_
  unfold audioScore
  refine Finset.sum_congr rfl fun e _ => ?_
  exact congrArg (· * x3 (ix2 e s)) (dense_relu_apply (some .fp32) x0 x1 x2 _ _ r e)

end Cert.KernelIdeal.BlockValue

end
-- ==== Proof.ScoreArray.lean ====
/-
  The first region's output array: the audio scores of all 2560 rows.

  The region runs the first kernel at ten grid points; point `t` reads audio rows 256·t … 256·t + 255 and the whole
  weight arrays, and writes rows 256·t … 256·t + 255 of the [2560, 49] output. So the ten blocks tile the output, and
  entry (n, s) of what the region leaves is the audio score of position `s` for row `n`, the transposed weight copies
  read back to the weights as given.
-/
import proofs.«172738_j79972291051647_2_alg».proof.Proof.Entry
import proofs.«172738_j79972291051647_2_alg».proof.Proof.ScoreBlock
import Idealize.ShloMosaic.Lib.Pipeline.Value
import Idealize.ShloMosaic.Lib.ValueLayout

set_option maxRecDepth 16384

noncomputable section

namespace Cert.KernelIdeal.Arrays

open Cert.KernelIdeal Cert.KernelIdeal.Gen Cert.KernelIdeal.BlockValue Cert.Attn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The audio rows the kernels see: the audio input flattened to [2560, 128]. -/
abbrev audRows (c : Dev nD) : S2560x128.Idx → EReal :=
  shapeCast S2560x128 (m ((c : Thread nD τ).loc main_arg0)) shapeCasts_S256x10x128_S2560x128

/-- The [2560, 49] array of audio scores of the launch memory's audio and weights. -/
def scores (c : Dev nD) : S2560x49.Idx → EReal := fun i =>
  scoreArr (audRows m c) (m ((c : Thread nD τ).loc main_arg2)) (m ((c : Thread nD τ).loc main_arg3))
    (m ((c : Thread nD τ).loc main_arg6)) (i 0) (i 1)

/-- The printed index maps over the ten grid points: the audio window moves with the output window along the rows,
    every other block index is zero, and the output's row block index is the point's, below ten. -/
theorem index_facts0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every row block of the output is some point's. -/
theorem index_onto0 : ∀ q : Fin 10, ∃ t : Fin cfg0.N, win0_4.index t = ![q.val, 0] :=
  (by decide +kernel : ∀ q : Fin 10, ∃ t : Fin grid0.N, win0_4.index t = ![q.val, 0])

/-! ## The input blocks at a point -/

/-- Row `r` of the audio block at point `t` is audio row `n` = 256 · (the point's row block) + r. -/
theorem block_aud (c : Dev nD) (t : Fin cfg0.N) (r : Fin 256) (k : Fin 128) (n : Fin 2560)
    (hn : n.val = win0_4.index t (0 : Fin 2) * 256 + r.val) :
    iblk0 (V1 m ρ) c 0 t (ix2 r k) = audRows m c (ix2 n k) := by
  show V1 m ρ c main_v0 (((cfg0.win 0).blk t).view.emb (ix2 r k)) = _
  rw [entry_aud]
  obtain ⟨e0, e1, -⟩ := index_facts0 t
  refine congrArg _ (funext fun a => Fin.ext ?_)
  match a with
  | ⟨0, _⟩ => show win0_0.index t (0 : Fin 2) * 256 + 1 * r.val = n.val; omega
  | ⟨1, _⟩ => show win0_0.index t (1 : Fin 2) * 128 + 1 * k.val = k.val; omega

/-- The transposed first-layer weights, whole at every point: entry (k, e) is `Wa (e, k)`. -/
theorem block_waT (c : Dev nD) (t : Fin cfg0.N) (k : Fin 128) (e : Fin 512) :
    iblk0 (V1 m ρ) c 1 t (ix2 k e) = m ((c : Thread nD τ).loc main_arg2) (ix2 e k) := by
  show V1 m ρ c main_v2 (((cfg0.win 1).blk t).view.emb (ix2 k e)) = _
  rw [entry_waT]
  obtain ⟨-, -, e2, e3, -⟩ := index_facts0 t
  refine (congrArg _ (funext fun a => Fin.ext ?_)).trans (transpose_ix2_apply _ transposes_S512x128_S128x512_1_0 k e)
  match a with
  | ⟨0, _⟩ => show win0_1.index t (0 : Fin 2) * 128 + 1 * k.val = k.val; omega
  | ⟨1, _⟩ => show win0_1.index t (1 : Fin 2) * 512 + 1 * e.val = e.val; omega

/-- The first-layer bias, whole at every point. -/
theorem block_ba (c : Dev nD) (t : Fin cfg0.N) (e : Fin 512) :
    iblk0 (V1 m ρ) c 2 t (ix1 e) = m ((c : Thread nD τ).loc main_arg3) (ix1 e) := by
  show V1 m ρ c main_arg3 (((cfg0.win 2).blk t).view.emb (ix1 e)) = _
  rw [entry_ba]
  obtain ⟨-, -, -, -, e4, -⟩ := index_facts0 t
  refine congrArg _ (funext fun a => Fin.ext ?_)
  match a with
  | ⟨0, _⟩ => show win0_2.index t (0 : Fin 1) * 512 + 1 * e.val = e.val; omega

/-- The transposed audio score weights, whole at every point: entry (e, s) is `Aa (s, e)`. -/
theorem block_aaT (c : Dev nD) (t : Fin cfg0.N) (e : Fin 512) (s : Fin 49) :
    iblk0 (V1 m ρ) c 3 t (ix2 e s) = m ((c : Thread nD τ).loc main_arg6) (ix2 s e) := by
  show V1 m ρ c main_v3 (((cfg0.win 3).blk t).view.emb (ix2 e s)) = _
  rw [entry_aaT]
  obtain ⟨-, -, -, -, -, e5, e6, -⟩ := index_facts0 t
  refine (congrArg _ (funext fun a => Fin.ext ?_)).trans (transpose_ix2_apply _ transposes_S49x512_S512x49_1_0 e s)
  match a with
  | ⟨0, _⟩ => show win0_3.index t (0 : Fin 2) * 512 + 1 * e.val = e.val; omega
  | ⟨1, _⟩ => show win0_3.index t (1 : Fin 2) * 49 + 1 * s.val = s.val; omega

/-! ## What a point writes back -/

/-- The body's stored value at block index `y`, read at the array index `i` the block places it at, is the
    score array's entry. -/
theorem scores_at (c : Dev nD) (t : Fin cfg0.N) (y : S256x49.Idx) (i : S2560x49.Idx)
    (h0 : (i 0).val = win0_4.index t (0 : Fin 2) * 256 + (y 0).val) (h1 : (i 1).val = (y 1).val) :
    k0_pay1 (F := Ideal) (iblk0 (V1 m ρ) c 0 t) (iblk0 (V1 m ρ) c 1 t) (iblk0 (V1 m ρ) c 2 t) (iblk0 (V1 m ρ) c 3 t) y
      = scores m c i := by
  have hy := scoreBlock (iblk0 (V1 m ρ) c 0 t) (iblk0 (V1 m ρ) c 1 t) (iblk0 (V1 m ρ) c 2 t) (iblk0 (V1 m ρ) c 3 t) (y 0) (y 1)
  have hsplit : k0_pay1 (F := Ideal) (iblk0 (V1 m ρ) c 0 t) (iblk0 (V1 m ρ) c 1 t) (iblk0 (V1 m ρ) c 2 t) (iblk0 (V1 m ρ) c 3 t) y
      = k0_pay1 (F := Ideal) (iblk0 (V1 m ρ) c 0 t) (iblk0 (V1 m ρ) c 1 t) (iblk0 (V1 m ρ) c 2 t) (iblk0 (V1 m ρ) c 3 t)
          (ix2 (y 0) (y 1)) :=
    congrArg (k0_pay1 (F := Ideal) (iblk0 (V1 m ρ) c 0 t) (iblk0 (V1 m ρ) c 1 t) (iblk0 (V1 m ρ) c 2 t) (iblk0 (V1 m ρ) c 3 t))
      (eq_ix2 y)
  refine (hsplit.trans hy).trans ?_
  unfold scores scoreArr
  have e0 : (fun k : Fin 128 => iblk0 (V1 m ρ) c 0 t (ix2 (y 0) k)) = fun k => audRows m c (ix2 (i 0) k) :=
    funext fun k => block_aud m ρ c t (y 0) k (i 0) h0
  have e1 : (fun (e : Fin 512) (k : Fin 128) => iblk0 (V1 m ρ) c 1 t (ix2 k e))
      = fun e k => m ((c : Thread nD τ).loc main_arg2) (ix2 e k) :=
    funext fun e => funext fun k => block_waT m ρ c t k e
  have e2 : (fun e : Fin 512 => iblk0 (V1 m ρ) c 2 t (ix1 e)) = fun e => m ((c : Thread nD τ).loc main_arg3) (ix1 e) :=
    funext fun e => block_ba m ρ c t e
  have e3 : (fun (s' : Fin 49) (e : Fin 512) => iblk0 (V1 m ρ) c 3 t (ix2 e s'))
      = fun s' e => m ((c : Thread nD τ).loc main_arg6) (ix2 s' e) :=
    funext fun s' => funext fun e => block_aaT m ρ c t e s'
  have e4 : (y 1 : Fin 49) = i 1 := Fin.ext h1.symm
  rw [e0, e1, e2, e3, e4]

/-- What point `t` writes back is block `t` of the score array. -/
theorem flushed_scores (c : Dev nD) (t : Fin cfg0.N) :
    (dat0 (V1 m ρ) c).flushed 4 t = ((cfg0.win 4).blk t).view.read (Elt Ideal) (scores m c) := by
  show (cfg0.win 4).cut (grid0.coords t) ((dat0 (V1 m ρ) c).after 4 t) = _
  rw [after0_4]
  unfold out0_4
  rw [View.canon_unit_zero off2]
  simp only [View.ld_unit_zero (S := S256x128) off2, View.ld_unit_zero (S := S128x512) off2,
    View.ld_unit_zero (S := S512) off1, View.ld_unit_zero (S := S512x49) off2]
  funext y
  refine scores_at m ρ c t y _ ?_ ?_
  · show win0_4.index t (0 : Fin 2) * 256 + 1 * (y 0).val = _; omega
  · obtain ⟨-, -, -, -, -, -, -, -, e8⟩ := index_facts0 t
    show win0_4.index t (1 : Fin 2) * 49 + 1 * (y 1).val = _; omega

/-! ## The blocks tile the array -/

/-- An index of the array is in point `t`'s block iff each coordinate is in the block's range on its axis. -/
theorem mem_block0 (t : Fin cfg0.N) (i : S2560x49.Idx) :
    i ∈ ((cfg0.win 4).blk t).view.set ↔ ∀ a : Fin 2, win0_4.index t a * S256x49.size a ≤ (i a).val
      ∧ (i a).val < win0_4.index t a * S256x49.size a + S256x49.size a := by
  show i ∈ ((View.whole main_v8).slice (win0_4.rect t)).set ↔ _
  rw [View.set_slice_whole, Rect.mem_set_unit]
  exact Iff.rfl

/-- Every index of the array is in some point's block: row `n` in the block of point `n / 256`. -/
theorem cover0 (i : S2560x49.Idx) :
    ∃ t : Fin cfg0.N, (cfg0.win 4).flush t = true ∧ i ∈ ((cfg0.win 4).blk t).view.set := by
  have hi0 : (i 0).val < 2560 := (i 0).isLt
  have hi1 : (i 1).val < 49 := (i 1).isLt
  obtain ⟨t, ht⟩ := index_onto0 ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_block0]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 49 ≤ (i 1).val ∧ (i 1).val < win0_4.index t (1 : Fin 2) * 49 + 49; omega

/-- The first region leaves the score array in its output array. -/
theorem scores_final (c : Dev nD) : ((dat0 (V1 m ρ) c).arrAt 4 cfg0.N : S2560x49.Idx → EReal) = scores m c :=
  (dat0 (V1 m ρ) c).arrAt_eq_of_cover 4 (scores m c) (fun t _ => flushed_scores m ρ c t) cover0

end Cert.KernelIdeal.Arrays

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.AttendBlock.lean ====
/-
  The second kernel's block: the attended rows of 64 batch-time positions.

  The body loads a [64, 49, 512] block of visual features (64 rows, 49 spatial positions each), the audio scores of the
  block's 64 · 49 (row, position) pairs as a [3136, 1] column (pair (j, s) at flat row j · 49 + s), and the weights
  transposed: W [512, 512], b [512], A [512, 49], a_f [49, 1]. It flattens the pairs to 3136 rows, takes
  E = relu (V · W + b), T = tanh (a + E · A) and the logits ℓ = T · a_f, folds them back to [64, 49, 1], takes the
  softmax over each row's 49 positions the stable way (exp (ℓ − max ℓ) / ∑ exp (ℓ − max ℓ)) and stores, for each row,
  the sum over positions of weight · features. At (j, d) that is feature d of the attended row `attend` of the row's
  49 feature vectors and audio scores, the weights read back through their transposes.

  The arithmetic is named stage by stage (`embed`, `preact`, `logits`, `rowMax`, `shifted`, `rowSum`, `softmax`,
  `weighted`); each stage is read at an entry given by coordinates, and the entries compose to `attend`. The zero of
  relu and the −∞ the maximum starts from stay the f32 patterns; only the zero accumulators of the products and of
  the sums vanish.
-/
import proofs.«172738_j79972291051647_2_alg».proof.Proof.Gen.KernelIdeal.Skeleton
import proofs.«172738_j79972291051647_2_alg».proof.Proof.Spec
import proofs.«172738_j79972291051647_2_alg».proof.Proof.LibPlainMatmul
import proofs.«172738_j79972291051647_2_alg».proof.Proof.LibColumnBroadcast
import proofs.«172738_j79972291051647_2_alg».proof.Proof.DenseRelu
import Idealize.ShloMosaic.Lib.ValueLayout
import Idealize.ShloMosaic.PureOps.Ideal.Laws

noncomputable section

namespace Cert.KernelIdeal.BlockValue

open Cert.KernelIdeal Cert.KernelIdeal.Gen Cert.Attn Idealize.ShloMosaic Idealize.ShloMosaic.ValueIdx

/-! ## Layout operations read at an index given by coordinates -/

section Layout
variable {α : Type}

/-- An `[a, b, c]` array cast to `[n, c]` reads, at `(q, e)` with `q = p · b + s`, the operand at `(p, s, e)`:
    the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (e : Fin c) (q : Fin n)
    (hq : q.val = p.val * b + s.val) :
    shapeCast ⟨2, ![n, c]⟩ x h (ix2 q e) = x (ix3 p s e) :=
  shapeCast_apply x h _ _ (by
    rw [Shape.rowMajor_val_three, Shape.rowMajor_val_two]
    show (p.val * b + s.val) * c + e.val = q.val * c + e.val
    rw [hq])

/-- An `[n, 1]` column cast to `[a, b, 1]` reads, at `(p, s, u)`, the operand at `(q, 0)` with `q = p · b + s`. -/
theorem shapeCast_n1_ab1_apply {a b n : ℕ} (x : (⟨2, ![n, 1]⟩ : Shape).Idx → α)
    (h : (⟨2, ![n, 1]⟩ : Shape).ShapeCasts ⟨3, ![a, b, 1]⟩) (p : Fin a) (s : Fin b) (u : Fin 1) (q : Fin n)
    (hq : q.val = p.val * b + s.val) :
    shapeCast ⟨3, ![a, b, 1]⟩ x h (ix3 p s u) = x (ix2 q (0 : Fin 1)) :=
  shapeCast_apply x h _ _ (by
    have hu : u.val = 0 := by omega
    rw [Shape.rowMajor_val_three, Shape.rowMajor_val_two]
    show q.val * 1 + 0 = (p.val * b + s.val) * 1 + u.val
    rw [hq, hu])

/-- An `[a, 1]` column cast to `[a, 1, 1]` reads, at `(p, u, w)`, the operand at `(p, 0)`. -/
theorem shapeCast_a1_a11_apply {a : ℕ} (x : (⟨2, ![a, 1]⟩ : Shape).Idx → α)
    (h : (⟨2, ![a, 1]⟩ : Shape).ShapeCasts ⟨3, ![a, 1, 1]⟩) (p : Fin a) (u w : Fin 1) :
    shapeCast ⟨3, ![a, 1, 1]⟩ x h (ix3 p u w) = x (ix2 p (0 : Fin 1)) :=
  shapeCast_apply x h _ _ (by
    have hu : u.val = 0 := by omega
    have hw : w.val = 0 := by omega
    rw [Shape.rowMajor_val_three, Shape.rowMajor_val_two]
    show p.val * 1 + 0 = (p.val * 1 + u.val) * 1 + w.val
    omega)

/-- An `[a, 1, 1]` array broadcast to `[a, b, 1]` reads, at `(p, s, u)`, the operand at `(p, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (p : Fin a) (s : Fin b) (u : Fin 1) :
    broadcastTo ⟨3, ![a, b, 1]⟩ v h (ix3 p s u) = v (ix3 p (0 : Fin 1) (0 : Fin 1)) := by
  refine broadcastTo_apply v h (ix3 p s u) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- An `[a, b, 1]` array broadcast to `[a, b, c]` reads, at `(p, s, e)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (e : Fin c) :
    broadcastTo ⟨3, ![a, b, c]⟩ v h (ix3 p s e) = v (ix3 p s (0 : Fin 1)) := by
  refine broadcastTo_apply v h (ix3 p s e) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Layout

/-! ## Reductions over the middle axis of a rank-3 array -/

/-- The index of an `[a, b, c]` array that a reduction over its middle axis reads at `(p, e)` and position `s` is `(p, s, e)`. -/
theorem lift_mid {a b c : ℕ} (h : (⟨3, ![a, b, c]⟩ : Shape).Reduces [1] ⟨2, ![a, c]⟩) (p : Fin a) (e : Fin c) (s : Fin b) :
    h.lift (ix2 p e) s = ix3 p s e := by
  funext ax
  match ax with
  | ⟨0, _⟩ => exact Fin.ext rfl
  | ⟨1, _⟩ => exact Fin.ext rfl
  | ⟨2, _⟩ => exact Fin.ext rfl

/-- The sum over the middle axis of an `[a, b, c]` array, at `(p, e)`, is `∑ s, src (p, s, e)`. -/
theorem sum_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (e : Fin c) :
    multiReduction (F := Ideal) .add [1] ⟨2, ![a, c]⟩ src acc h hφ hacc (ix2 p e) = ∑ s : Fin b, src (ix3 p s e) := by
  refine (Ideal.multiReduction_add_single src acc h hφ hacc (ix2 p e)).trans ?_
  show ∑ s : Fin b, src (h.lift (ix2 p e) s) = _
  exact Finset.sum_congr rfl fun s _ => congrArg src (lift_mid h p e s)

/-- The maximum over the middle axis of an `[a, b, c]` array, at `(p, e)`, is the fold of `max` over `s` of
    `src (p, s, e)`, from the value the accumulator's pattern denotes. -/
theorem max_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.maximumf.neutral .f32 hφ) (p : Fin a) (e : Fin c) :
    multiReduction (F := Ideal) .maximumf [1] ⟨2, ![a, c]⟩ src acc h hφ hacc (ix2 p e)
      = (Finset.univ : Finset (Fin b)).fold max (Ideal.ofBits .f32 acc) (fun s => src (ix3 p s e)) := by
  refine (Ideal.multiReduction_maximumf_single src acc h hφ hacc (ix2 p e)).trans ?_
  show (Finset.univ : Finset (Fin b)).fold max (Ideal.ofBits .f32 acc) (fun s => src (h.lift (ix2 p e) s)) = _
  exact congrArg (fun f => (Finset.univ : Finset (Fin b)).fold max (Ideal.ofBits .f32 acc) f)
    (funext fun s => congrArg src (lift_mid h p e s))

/-! ## The elementwise transcendental operations at an index -/

/-- A hyperbolic tangent at an index is the tangent of the element. -/
theorem tanh_at {s : Shape} {φ : FTy} (a : FVec Ideal s φ) (i : s.Idx) : tanh a i = Ideal.tanh (a i) := rfl
/-- An exponential at an index is the exponential of the element. -/
theorem exp_at {s : Shape} {φ : FTy} (a : FVec Ideal s φ) (i : s.Idx) : exp a i = Ideal.exp (a i) := rfl

/-! ## The block's arithmetic, stage by stage

The block holds 64 rows of 49 positions. The (row, position) pairs are flattened to 3136 rows for the three matrix
products and folded back to `[64, 49, 1]` for the softmax over positions. -/

/-- Position `s` of block row `j` sits at flat row `j · 49 + s`. -/
def flatRow (j : Fin 64) (s : Fin 49) : Fin 3136 := ⟨j.val * 49 + s.val, by have := j.isLt; have := s.isLt; omega⟩

/-- The embedding of the 3136 flattened positions: `relu (V · W + b)`, `V` the block's features as a `[3136, 512]` matrix. -/
def embed (x0 : Vec Ideal S64x49x512 .f32) (x2 : Vec Ideal S512x512 .bf16) (x3 : Vec Ideal S512 .f32) :
    FVec Ideal S3136x512 .f32 :=
  maximumf
    (addf
      (matmul dot_S3136x512_S512x512_S3136x512_1_0_0_1_n_n none
        (truncf .bf16 (shapeCast S3136x512 (shapeCast S64x49x512 x0 shapeCasts_S64x49x512_S64x49x512)
          shapeCasts_S64x49x512_S3136x512) bitsLt_bf16_f32)
        (shapeCast S512x512 x2 shapeCasts_S512x512_S512x512 : FVec Ideal S512x512 .bf16) (constant S3136x512 .f32 0x00000000#32))
      (broadcastTo S3136x512 (shapeCast S1x512 x3 shapeCasts_S512_S1x512) broadcasts_S1x512_S3136x512))
    (broadcast S3136x512 (Scalar.ofBits .f32 0x00000000#32))

/-- `tanh (a + E · A)`: the audio score of each flat row added along its row of the product. -/
def preact (E : FVec Ideal S3136x512 .f32) (x4 : Vec Ideal S512x49 .f32) (x1 : Vec Ideal S3136x1 .f32) :
    FVec Ideal S3136x49 .f32 :=
  tanh (addf (broadcastTo S3136x49 (shapeCast S3136x1 x1 shapeCasts_S3136x1_S3136x1) broadcasts_S3136x1_S3136x49)
    (matmul dot_S3136x512_S512x49_S3136x49_1_0_0_1_n_n (some .fp32) E (shapeCast S512x49 x4 shapeCasts_S512x49_S512x49 : FVec Ideal S512x49 .f32)
      (constant S3136x49 .f32 0x00000000#32)))

/-- The logits `T · a_f`, folded back to `[64, 49, 1]`. -/
def logits (T : FVec Ideal S3136x49 .f32) (x5 : Vec Ideal S49x1 .f32) : FVec Ideal S64x49x1 .f32 :=
  shapeCast S64x49x1
    (matmul dot_S3136x49_S49x1_S3136x1_1_0_0_1_n_n (some .fp32) T (shapeCast S49x1 x5 shapeCasts_S49x1_S49x1 : FVec Ideal S49x1 .f32)
      (constant S3136x1 .f32 0x00000000#32))
    shapeCasts_S3136x1_S64x49x1

/-- Each row's largest logit, repeated along the row's positions. -/
def rowMax (L : FVec Ideal S64x49x1 .f32) : FVec Ideal S64x49x1 .f32 :=
  broadcastTo S64x49x1
    (shapeCast S64x1x1 (multiReduction .maximumf [1] S64x1 L 0xFF800000#32 reduces_S64x49x1_S64x1 (.inl rfl) rfl)
      shapeCasts_S64x1_S64x1x1)
    broadcasts_S64x1x1_S64x49x1

/-- The shifted exponentials `exp (ℓ − max ℓ)`. -/
def shifted (L : FVec Ideal S64x49x1 .f32) : FVec Ideal S64x49x1 .f32 := exp (subf L (rowMax L))

/-- Each row's sum over its positions, repeated along the row's positions. -/
def rowSum (P : FVec Ideal S64x49x1 .f32) : FVec Ideal S64x49x1 .f32 :=
  broadcastTo S64x49x1
    (shapeCast S64x1x1 (multiReduction .add [1] S64x1 P 0x00000000#32 reduces_S64x49x1_S64x1 (.inl rfl) rfl)
      shapeCasts_S64x1_S64x1x1)
    broadcasts_S64x1x1_S64x49x1

/-- The softmax over positions, taken the stable way. -/
def softmax (L : FVec Ideal S64x49x1 .f32) : FVec Ideal S64x49x1 .f32 := divf (shifted L) (rowSum (shifted L))

/-- Each position's features scaled by the position's weight. -/
def weighted (W : FVec Ideal S64x49x1 .f32) (x0 : Vec Ideal S64x49x512 .f32) : FVec Ideal S64x49x512 .f32 :=
  mulf (broadcastTo S64x49x512 W broadcasts_S64x49x1_S64x49x512)
    (shapeCast S64x49x512 x0 shapeCasts_S64x49x512_S64x49x512)

/-- The body's weighted product is the composition of the stages. -/
theorem pay2_eq (x0 : Vec Ideal S64x49x512 .f32) (x1 : Vec Ideal S3136x1 .f32) (x2 : Vec Ideal S512x512 .bf16)
    (x3 : Vec Ideal S512 .f32) (x4 : Vec Ideal S512x49 .f32) (x5 : Vec Ideal S49x1 .f32) :
    k1_pay2 (F := Ideal) x0 x2 x3 x4 x1 x5 x0 = weighted (softmax (logits (preact (embed x0 x2 x3) x4 x1) x5)) x0 := rfl

/-! ## Each stage read at an entry -/

/-- The embedding of position `s` of row `j`, feature `e`: `relu (⟨v, W · e⟩ + b e)` for the position's features `v`. -/
theorem embed_apply (x0 : Vec Ideal S64x49x512 .f32) (x2 : Vec Ideal S512x512 .bf16) (x3 : Vec Ideal S512 .f32)
    (j : Fin 64) (s : Fin 49) (e : Fin 512) :
    embed x0 x2 x3 (ix2 (flatRow j s) e)
      = max ((∑ d : Fin 512, x0 (ix3 j s d) * x2 (ix2 d e)) + x3 (ix1 e)) (Ideal.ofBits .f32 0x00000000#32) := by
  refine (dense_relu_apply (m := 3136) (k := 512) (n := 512) none _ _ x3 shapeCasts_S512_S1x512
    broadcasts_S1x512_S3136x512 (flatRow j s) e).trans ?_
  refine congrArg (fun t => max (t + x3 (ix1 e)) (Ideal.ofBits .f32 0x00000000#32)) (Finset.sum_congr rfl fun d _ => ?_)
  rw [truncf_apply, shapeCast_self, shapeCast_self]
  exact congrArg (· * x2 (ix2 d e)) (shapeCast_abc_nc_apply x0 shapeCasts_S64x49x512_S3136x512 j s d (flatRow j s) rfl)

/-- Entry `(q, f)` of the second stage: `tanh (a q + ∑ e, E (q, e) · A (e, f))`. -/
theorem preact_apply (E : FVec Ideal S3136x512 .f32) (x4 : Vec Ideal S512x49 .f32) (x1 : Vec Ideal S3136x1 .f32)
    (q : Fin 3136) (f : Fin 49) :
    preact E x4 x1 (ix2 q f) = Ideal.tanh (x1 (ix2 q 0) + ∑ e : Fin 512, E (ix2 q e) * x4 (ix2 e f)) := by
  unfold preact
  rw [tanh_at, addf_apply, shapeCast_self, shapeCast_self, Cert.LibColumnBroadcast.broadcastTo_a1_ab_apply]
  exact congrArg (fun t => Ideal.tanh (x1 (ix2 q 0) + t)) (matmul_plain_zero_apply (some .fp32) E x4 q f)

/-- The logit of position `s` of row `j`: `∑ f, T (j · 49 + s, f) · a_f f`. -/
theorem logits_apply (T : FVec Ideal S3136x49 .f32) (x5 : Vec Ideal S49x1 .f32) (j : Fin 64) (s : Fin 49) (u : Fin 1) :
    logits T x5 (ix3 j s u) = ∑ f : Fin 49, T (ix2 (flatRow j s) f) * x5 (ix2 f 0) := by
  unfold logits
  rw [shapeCast_self]
  refine (shapeCast_n1_ab1_apply _ shapeCasts_S3136x1_S64x49x1 j s u (flatRow j s) rfl).trans ?_
  exact matmul_plain_zero_apply (some .fp32) T x5 (flatRow j s) (0 : Fin 1)

/-- A row's largest logit, read at any of the row's positions. -/
theorem rowMax_apply (L : FVec Ideal S64x49x1 .f32) (j : Fin 64) (s : Fin 49) (u : Fin 1) :
    rowMax L (ix3 j s u)
      = (Finset.univ : Finset (Fin 49)).fold max (Ideal.ofBits .f32 0xFF800000#32) (fun s' => L (ix3 j s' 0)) := by
  unfold rowMax
  refine (broadcastTo_a11_ab1_apply _ broadcasts_S64x1x1_S64x49x1 j s u).trans ?_
  refine (shapeCast_a1_a11_apply _ shapeCasts_S64x1_S64x1x1 j 0 0).trans ?_
  exact max_mid_apply L _ reduces_S64x49x1_S64x1 _ _ j 0

/-- A row's sum over its positions, read at any of the row's positions. -/
theorem rowSum_apply (P : FVec Ideal S64x49x1 .f32) (j : Fin 64) (s : Fin 49) (u : Fin 1) :
    rowSum P (ix3 j s u) = ∑ s' : Fin 49, P (ix3 j s' 0) := by
  unfold rowSum
  refine (broadcastTo_a11_ab1_apply _ broadcasts_S64x1x1_S64x49x1 j s u).trans ?_
  refine (shapeCast_a1_a11_apply _ shapeCasts_S64x1_S64x1x1 j 0 0).trans ?_
  exact sum_mid_apply P _ reduces_S64x49x1_S64x1 _ _ j 0

/-- The shifted exponential of position `s` of row `j`. -/
theorem shifted_apply (L : FVec Ideal S64x49x1 .f32) (j : Fin 64) (s : Fin 49) (u : Fin 1) :
    shifted L (ix3 j s u)
      = Ideal.exp (L (ix3 j s u)
          - (Finset.univ : Finset (Fin 49)).fold max (Ideal.ofBits .f32 0xFF800000#32) (fun s' => L (ix3 j s' 0))) := by
  unfold shifted
  rw [exp_at, subf_apply, rowMax_apply]

/-- The softmax weight of position `s` of row `j`. -/
theorem softmax_apply (L : FVec Ideal S64x49x1 .f32) (j : Fin 64) (s : Fin 49) (u : Fin 1) :
    softmax L (ix3 j s u) = Ideal.div (shifted L (ix3 j s u)) (∑ s' : Fin 49, shifted L (ix3 j s' 0)) := by
  unfold softmax
  rw [divf_apply, rowSum_apply]

/-- The weighted features at `(j, s, d)`: the position's weight times its feature. -/
theorem weighted_apply (W : FVec Ideal S64x49x1 .f32) (x0 : Vec Ideal S64x49x512 .f32) (j : Fin 64) (s : Fin 49) (d : Fin 512) :
    weighted W x0 (ix3 j s d) = W (ix3 j s 0) * x0 (ix3 j s d) := by
  unfold weighted
  rw [mulf_apply, shapeCast_self, broadcastTo_ab1_abc_apply]

/-- The stored block at `(j, d)` is the sum over the row's positions of the weighted features. -/
theorem pay1_apply (V : FVec Ideal S64x49x512 .f32) (j : Fin 64) (d : Fin 512) :
    k1_pay1 (F := Ideal) V (ix2 j d) = ∑ s : Fin 49, V (ix3 j s d) :=
  sum_mid_apply V 0x00000000#32 reduces_S64x49x512_S64x512 (.inl rfl) rfl j d

/-! ## The block's value -/

/-- Feature `d` of block row `j` of what the body stores is the attended row `attend`: the softmax, over the
    row's 49 positions, of the additive logits, applied to the positions' features. The weights are read through the
    transposes the body is handed, and the audio score of position `s` at flat row `j · 49 + s`. -/
theorem attendBlock (x0 : Vec Ideal S64x49x512 .f32) (x1 : Vec Ideal S3136x1 .f32) (x2 : Vec Ideal S512x512 .bf16)
    (x3 : Vec Ideal S512 .f32) (x4 : Vec Ideal S512x49 .f32) (x5 : Vec Ideal S49x1 .f32) (j : Fin 64) (d : Fin 512) :
    k1_pay1 (F := Ideal) (k1_pay2 x0 x2 x3 x4 x1 x5 x0) (ix2 j d)
      = attend (fun s d' => x0 (ix3 j s d')) (fun s => x1 (ix2 (flatRow j s) 0)) (fun e d' => x2 (ix2 d' e))
          (fun e => x3 (ix1 e)) (fun f e => x4 (ix2 e f)) (fun f => x5 (ix2 f 0)) d := by
  rw [pay2_eq, pay1_apply]
  have hl : ∀ s' : Fin 49, logits (preact (embed x0 x2 x3) x4 x1) x5 (ix3 j s' 0)
      = logit (fun d' => x0 (ix3 j s' d')) (x1 (ix2 (flatRow j s') 0)) (fun e d' => x2 (ix2 d' e))
          (fun e => x3 (ix1 e)) (fun f e => x4 (ix2 e f)) (fun f => x5 (ix2 f 0)) := by
    intro s'
    rw [logits_apply]
    unfold logit
    refine Finset.sum_congr rfl fun f _ => ?_
    rw [preact_apply]
    simp only [embed_apply]
  unfold attend
  refine Finset.sum_congr rfl fun s _ => ?_
  rw [weighted_apply, softmax_apply]
  simp only [shifted_apply, hl]
  rfl

end Cert.KernelIdeal.BlockValue

end
-- ==== Proof.AttendArray.lean ====
/-
  The second region's output array: the attended rows.

  The region runs the second kernel at forty grid points; point `t` reads visual rows 64·t … 64·t + 63, the matching
  3136 entries of the flattened audio scores — pair (row 64·t + j, position s) sits at flat row (64·t + j)·49 + s — and
  the whole weight arrays, and writes rows 64·t … 64·t + 63 of the [2560, 512] output. The forty blocks tile the output,
  and entry (n, d) of what the region leaves is feature `d` of the attended row `n`.
-/
import proofs.«172738_j79972291051647_2_alg».proof.Proof.ScoreArray
import proofs.«172738_j79972291051647_2_alg».proof.Proof.AttendBlock

set_option maxRecDepth 16384

noncomputable section

namespace Cert.KernelIdeal.Arrays

open Cert.KernelIdeal Cert.KernelIdeal.Gen Cert.KernelIdeal.BlockValue Cert.Attn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem off3 : (![0, 0, 0] : Fin 3 → Nat) = fun _ => 0 := funext fun a => by fin_cases a <;> rfl

/-- The visual rows the kernels see: the visual input flattened to [2560, 49, 512]. -/
abbrev visRows (c : Dev nD) : S2560x49x512.Idx → EReal :=
  shapeCast S2560x49x512 (m ((c : Thread nD τ).loc main_arg1)) shapeCasts_S256x10x7x7x512_S2560x49x512

/-- The [2560, 512] array of attended rows of the launch memory's inputs and weights. -/
def attended (c : Dev nD) : S2560x512.Idx → EReal := fun i =>
  outArr (audRows m c) (visRows m c) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

/-- The printed index maps over the forty grid points: the visual window and the score column move with the output
    window along the rows, every other block index is zero, and the output's row block index is below forty. -/
theorem index_facts1 : ∀ t : Fin cfg1.N,
    win1_0.index t (0 : Fin 3) = win1_6.index t (0 : Fin 2) ∧ win1_0.index t (1 : Fin 3) = 0 ∧ win1_0.index t (2 : Fin 3) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 39 ∧ win1_6.index t (1 : Fin 2) = 0 :=
  (by decide +kernel : ∀ t : Fin grid1.N, _)

/-- Every row block of the output is some point's. -/
theorem index_onto1 : ∀ q : Fin 40, ∃ t : Fin cfg1.N, win1_6.index t = ![q.val, 0] :=
  (by decide +kernel : ∀ q : Fin 40, ∃ t : Fin grid1.N, win1_6.index t = ![q.val, 0])

/-! ## The input blocks at a point -/

/-- Row `j` of the visual block at point `t` is visual row `n` = 64 · (the point's row block) + j. -/
theorem block_vis (c : Dev nD) (t : Fin cfg1.N) (j : Fin 64) (s : Fin 49) (d : Fin 512) (n : Fin 2560)
    (hn : n.val = win1_6.index t (0 : Fin 2) * 64 + j.val) :
    iblk1 (V3 m ρ) c 0 t (ix3 j s d) = visRows m c (ix3 n s d) := by
  show V3 m ρ c main_v1 (((cfg1.win 0).blk t).view.emb (ix3 j s d)) = _
  rw [entry_vis]
  obtain ⟨e0, e1, e2, -⟩ := index_facts1 t
  refine congrArg _ (funext fun a => Fin.ext ?_)
  match a with
  | ⟨0, _⟩ => show win1_0.index t (0 : Fin 3) * 64 + 1 * j.val = n.val; omega
  | ⟨1, _⟩ => show win1_0.index t (1 : Fin 3) * 49 + 1 * s.val = s.val; omega
  | ⟨2, _⟩ => show win1_0.index t (2 : Fin 3) * 512 + 1 * d.val = d.val; omega

/-- The score column's block at point `t`, at the flat row of pair (j, s), is the audio score of position `s` for
    row `n` = 64 · (the point's row block) + j: the column is the first region's score array flattened. -/
theorem block_scores (c : Dev nD) (t : Fin cfg1.N) (j : Fin 64) (s : Fin 49) (n : Fin 2560)
    (hn : n.val = win1_6.index t (0 : Fin 2) * 64 + j.val) :
    iblk1 (V3 m ρ) c 1 t (ix2 (flatRow j s) 0)
      = scoreArr (audRows m c) (m ((c : Thread nD τ).loc main_arg2)) (m ((c : Thread nD τ).loc main_arg3))
          (m ((c : Thread nD τ).loc main_arg6)) n s := by
  show V3 m ρ c main_v9 (((cfg1.win 1).blk t).view.emb (ix2 (flatRow j s) 0)) = _
  rw [entry_scores, scores_final]
  obtain ⟨-, -, -, e3, e4, -⟩ := index_facts1 t
  refine (shapeCast_apply (scores m c) shapeCasts_S2560x49_S125440x1 _ (ix2 n s) ?_).trans rfl
  rw [Shape.rowMajor_val_two, Shape.rowMajor_val_two]
  show n.val * 49 + s.val = (win1_1.index t (0 : Fin 2) * 3136 + 1 * (j.val * 49 + s.val)) * 1 + (win1_1.index t (1 : Fin 2) * 1 + 1 * 0)
  omega

/-- The transposed visual-layer weights, whole at every point: entry (d, e) is `Wv (e, d)`. -/
theorem block_wvT (c : Dev nD) (t : Fin cfg1.N) (d : Fin 512) (e : Fin 512) :
    iblk1 (V3 m ρ) c 2 t (ix2 d e) = m ((c : Thread nD τ).loc main_arg4) (ix2 e d) := by
  show V3 m ρ c main_v5 (((cfg1.win 2).blk t).view.emb (ix2 d e)) = _
  rw [entry_wvT]
  obtain ⟨-, -, -, -, -, e5, e6, -⟩ := index_facts1 t
  refine (congrArg _ (funext fun a => Fin.ext ?_)).trans (transpose_ix2_apply _ transposes_S512x512_S512x512_1_0 d e)
  match a with
  | ⟨0, _⟩ => show win1_2.index t (0 : Fin 2) * 512 + 1 * d.val = d.val; omega
  | ⟨1, _⟩ => show win1_2.index t (1 : Fin 2) * 512 + 1 * e.val = e.val; omega

/-- The visual-layer bias, whole at every point. -/
theorem block_bv (c : Dev nD) (t : Fin cfg1.N) (e : Fin 512) :
    iblk1 (V3 m ρ) c 3 t (ix1 e) = m ((c : Thread nD τ).loc main_arg5) (ix1 e) := by
  show V3 m ρ c main_arg5 (((cfg1.win 3).blk t).view.emb (ix1 e)) = _
  rw [entry_bv]
  obtain ⟨-, -, -, -, -, -, -, e7, -⟩ := index_facts1 t
  refine congrArg _ (funext fun a => Fin.ext ?_)
  match a with
  | ⟨0, _⟩ => show win1_3.index t (0 : Fin 1) * 512 + 1 * e.val = e.val; omega

/-- The transposed visual score weights, whole at every point: entry (e, f) is `Av (f, e)`. -/
theorem block_avT (c : Dev nD) (t : Fin cfg1.N) (e : Fin 512) (f : Fin 49) :
    iblk1 (V3 m ρ) c 4 t (ix2 e f) = m ((c : Thread nD τ).loc main_arg7) (ix2 f e) := by
  show V3 m ρ c main_v6 (((cfg1.win 4).blk t).view.emb (ix2 e f)) = _
  rw [entry_avT]
  obtain ⟨-, -, -, -, -, -, -, -, e8, e9, -⟩ := index_facts1 t
  refine (congrArg _ (funext fun a => Fin.ext ?_)).trans (transpose_ix2_apply _ transposes_S49x512_S512x49_1_0 e f)
  match a with
  | ⟨0, _⟩ => show win1_4.index t (0 : Fin 2) * 512 + 1 * e.val = e.val; omega
  | ⟨1, _⟩ => show win1_4.index t (1 : Fin 2) * 49 + 1 * f.val = f.val; omega

/-- The final projection as a column, whole at every point: entry (f, 0) is `Af (0, f)`. -/
theorem block_afT (c : Dev nD) (t : Fin cfg1.N) (f : Fin 49) :
    iblk1 (V3 m ρ) c 5 t (ix2 f (0 : Fin 1)) = m ((c : Thread nD τ).loc main_arg8) (ix2 (0 : Fin 1) f) := by
  show V3 m ρ c main_v7 (((cfg1.win 5).blk t).view.emb (ix2 f (0 : Fin 1))) = _
  rw [entry_afT]
  obtain ⟨-, -, -, -, -, -, -, -, -, -, e10, e11, -⟩ := index_facts1 t
  refine (congrArg _ (funext fun a => Fin.ext ?_)).trans (transpose_ix2_apply _ transposes_S1x49_S49x1_1_0 f (0 : Fin 1))
  match a with
  | ⟨0, _⟩ => show win1_5.index t (0 : Fin 2) * 49 + 1 * f.val = f.val; omega
  | ⟨1, _⟩ => show win1_5.index t (1 : Fin 2) * 1 + 1 * 0 = 0; omega

/-! ## What a point writes back -/

/-- The body's stored value at block index `y`, read at the array index `i` the block places it at, is the
    attended array's entry. -/
theorem attended_at (c : Dev nD) (t : Fin cfg1.N) (y : S64x512.Idx) (i : S2560x512.Idx)
    (h0 : (i 0).val = win1_6.index t (0 : Fin 2) * 64 + (y 0).val) (h1 : (i 1).val = (y 1).val) :
    k1_pay1 (F := Ideal) (k1_pay2 (iblk1 (V3 m ρ) c 0 t) (iblk1 (V3 m ρ) c 2 t) (iblk1 (V3 m ρ) c 3 t) (iblk1 (V3 m ρ) c 4 t)
        (iblk1 (V3 m ρ) c 1 t) (iblk1 (V3 m ρ) c 5 t) (iblk1 (V3 m ρ) c 0 t)) y
      = attended m c i := by
  have hy := attendBlock (iblk1 (V3 m ρ) c 0 t) (iblk1 (V3 m ρ) c 1 t) (iblk1 (V3 m ρ) c 2 t) (iblk1 (V3 m ρ) c 3 t)
    (iblk1 (V3 m ρ) c 4 t) (iblk1 (V3 m ρ) c 5 t) (y 0) (y 1)
  have hsplit : k1_pay1 (F := Ideal) (k1_pay2 (iblk1 (V3 m ρ) c 0 t) (iblk1 (V3 m ρ) c 2 t) (iblk1 (V3 m ρ) c 3 t) (iblk1 (V3 m ρ) c 4 t)
        (iblk1 (V3 m ρ) c 1 t) (iblk1 (V3 m ρ) c 5 t) (iblk1 (V3 m ρ) c 0 t)) y
      = k1_pay1 (F := Ideal) (k1_pay2 (iblk1 (V3 m ρ) c 0 t) (iblk1 (V3 m ρ) c 2 t) (iblk1 (V3 m ρ) c 3 t) (iblk1 (V3 m ρ) c 4 t)
        (iblk1 (V3 m ρ) c 1 t) (iblk1 (V3 m ρ) c 5 t) (iblk1 (V3 m ρ) c 0 t)) (ix2 (y 0) (y 1)) :=
    congrArg (k1_pay1 (F := Ideal) (k1_pay2 (iblk1 (V3 m ρ) c 0 t) (iblk1 (V3 m ρ) c 2 t) (iblk1 (V3 m ρ) c 3 t) (iblk1 (V3 m ρ) c 4 t)
        (iblk1 (V3 m ρ) c 1 t) (iblk1 (V3 m ρ) c 5 t) (iblk1 (V3 m ρ) c 0 t))) (eq_ix2 y)
  refine (hsplit.trans hy).trans ?_
  unfold attended outArr
  have e0 : (fun (s : Fin 49) (d' : Fin 512) => iblk1 (V3 m ρ) c 0 t (ix3 (y 0) s d'))
      = fun s d' => visRows m c (ix3 (i 0) s d') :=
    funext fun s => funext fun d' => block_vis m ρ c t (y 0) s d' (i 0) h0
  have e1 : (fun s : Fin 49 => iblk1 (V3 m ρ) c 1 t (ix2 (flatRow (y 0) s) 0))
      = fun s => scoreArr (audRows m c) (m ((c : Thread nD τ).loc main_arg2)) (m ((c : Thread nD τ).loc main_arg3))
          (m ((c : Thread nD τ).loc main_arg6)) (i 0) s :=
    funext fun s => block_scores m ρ c t (y 0) s (i 0) h0
  have e2 : (fun (e : Fin 512) (d' : Fin 512) => iblk1 (V3 m ρ) c 2 t (ix2 d' e))
      = fun e d' => m ((c : Thread nD τ).loc main_arg4) (ix2 e d') :=
    funext fun e => funext fun d' => block_wvT m ρ c t d' e
  have e3 : (fun e : Fin 512 => iblk1 (V3 m ρ) c 3 t (ix1 e)) = fun e => m ((c : Thread nD τ).loc main_arg5) (ix1 e) :=
    funext fun e => block_bv m ρ c t e
  have e4 : (fun (f : Fin 49) (e : Fin 512) => iblk1 (V3 m ρ) c 4 t (ix2 e f))
      = fun f e => m ((c : Thread nD τ).loc main_arg7) (ix2 f e) :=
    funext fun f => funext fun e => block_avT m ρ c t e f
  have e5 : (fun f : Fin 49 => iblk1 (V3 m ρ) c 5 t (ix2 f 0)) = fun f => m ((c : Thread nD τ).loc main_arg8) (ix2 0 f) :=
    funext fun f => block_afT m ρ c t f
  have e6 : (y 1 : Fin 512) = i 1 := Fin.ext h1.symm
  rw [e0, e1, e2, e3, e4, e5, e6]

/-- What point `t` writes back is block `t` of the attended array. -/
theorem flushed_attended (c : Dev nD) (t : Fin cfg1.N) :
    (dat1 (V3 m ρ) c).flushed 6 t = ((cfg1.win 6).blk t).view.read (Elt Ideal) (attended m c) := by
  show (cfg1.win 6).cut (grid1.coords t) ((dat1 (V3 m ρ) c).after 6 t) = _
  rw [after1_6]
  unfold out1_6
  rw [View.canon_unit_zero off2]
  simp only [View.ld_unit_zero (S := S64x49x512) off3, View.ld_unit_zero (S := S512x512) off2,
    View.ld_unit_zero (S := S512) off1, View.ld_unit_zero (S := S512x49) off2, View.ld_unit_zero (S := S3136x1) off2,
    View.ld_unit_zero (S := S49x1) off2]
  funext y
  refine attended_at m ρ c t y _ ?_ ?_
  · show win1_6.index t (0 : Fin 2) * 64 + 1 * (y 0).val = _; omega
  · obtain ⟨-, -, -, -, -, -, -, -, -, -, -, -, -, e13⟩ := index_facts1 t
    show win1_6.index t (1 : Fin 2) * 512 + 1 * (y 1).val = _; omega

/-! ## The blocks tile the array -/

/-- An index of the array is in point `t`'s block iff each coordinate is in the block's range on its axis. -/
theorem mem_block1 (t : Fin cfg1.N) (i : S2560x512.Idx) :
    i ∈ ((cfg1.win 6).blk t).view.set ↔ ∀ a : Fin 2, win1_6.index t a * S64x512.size a ≤ (i a).val
      ∧ (i a).val < win1_6.index t a * S64x512.size a + S64x512.size a := by
  show i ∈ ((View.whole main_v10).slice (win1_6.rect t)).set ↔ _
  rw [View.set_slice_whole, Rect.mem_set_unit]
  exact Iff.rfl

/-- Every index of the array is in some point's block: row `n` in the block of point `n / 64`. -/
theorem cover1 (i : S2560x512.Idx) :
    ∃ t : Fin cfg1.N, (cfg1.win 6).flush t = true ∧ i ∈ ((cfg1.win 6).blk t).view.set := by
  have hi0 : (i 0).val < 2560 := (i 0).isLt
  have hi1 : (i 1).val < 512 := (i 1).isLt
  obtain ⟨t, ht⟩ := index_onto1 ⟨(i 0).val / 64, by omega⟩
  have q0 : win1_6.index t (0 : Fin 2) = (i 0).val / 64 := congrFun ht 0
  have q1 : win1_6.index t (1 : Fin 2) = 0 := congrFun ht 1
  refine ⟨t, flush1_6 t, ?_⟩
  rw [mem_block1]
  intro a
  match a with
  | ⟨0, _⟩ => show win1_6.index t (0 : Fin 2) * 64 ≤ (i 0).val ∧ (i 0).val < win1_6.index t (0 : Fin 2) * 64 + 64; omega
  | ⟨1, _⟩ => show win1_6.index t (1 : Fin 2) * 512 ≤ (i 1).val ∧ (i 1).val < win1_6.index t (1 : Fin 2) * 512 + 512; omega

/-- The second region leaves the attended array in its output array. -/
theorem attended_final (c : Dev nD) : ((dat1 (V3 m ρ) c).arrAt 6 cfg1.N : S2560x512.Idx → EReal) = attended m c :=
  (dat1 (V3 m ρ) c).arrAt_eq_of_cover 6 (attended m c) (fun t _ => flushed_attended m ρ c t) cover1

end Cert.KernelIdeal.Arrays

end
-- ==== Proof.KernelValue.lean ====
/-
  The idealized kernel's result.

  The last host operation reshapes the second region's [2560, 512] output to [256, 10, 512]: entry (b, t, d) is
  entry (b·10 + t, d), feature `d` of the attended row b·10 + t. With the run of the whole program this names the
  result buffer in every final state as `result` of the flattened inputs and the weights as launched.
-/
import proofs.«172738_j79972291051647_2_alg».proof.Proof.KernelRun
import proofs.«172738_j79972291051647_2_alg».proof.Proof.AttendArray

set_option maxRecDepth 16384

noncomputable section

namespace Cert.KernelIdeal.Arrays

open Cert.KernelIdeal Cert.KernelIdeal.Gen Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result array of the launch memory's inputs and weights. -/
abbrev resultOf (c : Dev nD) : S256x10x512.Idx → EReal :=
  result (audRows m c) (visRows m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The result buffer at the last boundary is the result array: the attended array reshaped. -/
theorem result_final (c : Dev nD) :
    (W5 m ρ c (Proc.devRef .tc main_v11) : S256x10x512.Idx → EReal) = resultOf m c := by
  rw [exit_result, attended_final]
  funext i
  obtain ⟨b, t, d, rfl⟩ : ∃ (b : Fin 256) (t : Fin 10) (d : Fin 512), i = ix3 b t d := ⟨i 0, i 1, i 2, eq_ix3 i⟩
  refine (shapeCast_apply (attended m c) shapeCasts_S2560x512_S256x10x512 (ix3 b t d) (ix2 (rowOf b t) d) ?_).trans rfl
  rw [Shape.rowMajor_val_two, Shape.rowMajor_val_three]
  rfl

/-- Every weakly fair execution of the idealized kernel terminates, nothing faulting, with the result buffer at the
    result array and the nine argument arrays as launched. -/
theorem run : θ_run defs (onTc (τ := τ) (main (F := Ideal))) ⟨m, fun _ => 0, ρ⟩ (fun r => ∀ c : Dev nD,
      r.2.mem ((c.tc : Thread nD τ).loc main_v11) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_final m ρ c), (h c).2⟩) (AttnRun.run_result m ρ)

end Cert.KernelIdeal.Arrays

end
-- ==== Proof.RefValue.lean ====
/-
  The reference program of additive audio-visual attention, read one operation at a time at explicit coordinates,
  is the specification's `result`: the audio scores, the logits, their maximum, the shifted exponentials, their sum,
  the softmax weights and the attended rows, each at an index built from literal coordinates.
-/
import proofs.«172738_j79972291051647_2_alg».proof.Proof.Gen.ReferenceIdeal.Read
import proofs.«172738_j79972291051647_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- Two rank-1 indices with the same coordinate are equal. -/
local macro "idx1" : tactic => `(tactic| (funext a; match a with | ⟨0, _⟩ => rfl))
/-- Two rank-2 indices with the same coordinates are equal. -/
local macro "idx2" : tactic => `(tactic| (funext a; match a with | ⟨0, _⟩ => rfl | ⟨1, _⟩ => rfl))
/-- Two rank-3 indices with the same coordinates are equal. -/
local macro "idx3" : tactic => `(tactic| (funext a; match a with | ⟨0, _⟩ => rfl | ⟨1, _⟩ => rfl | ⟨2, _⟩ => rfl))

variable (a0 : (⟨S256x10x128, .f32⟩ : BufTy).Contents (Elt Ideal))
  (a1 : (⟨S256x10x7x7x512, .f32⟩ : BufTy).Contents (Elt Ideal))
  (a2 : (⟨S512x128, .f32⟩ : BufTy).Contents (Elt Ideal))
  (a3 : (⟨S512, .f32⟩ : BufTy).Contents (Elt Ideal))
  (a4 : (⟨S512x512, .f32⟩ : BufTy).Contents (Elt Ideal))
  (a5 : (⟨S512, .f32⟩ : BufTy).Contents (Elt Ideal))
  (a6 a7 : (⟨S49x512, .f32⟩ : BufTy).Contents (Elt Ideal))
  (a8 : (⟨S1x49, .f32⟩ : BufTy).Contents (Elt Ideal))

/-! ## The audio side -/

/-- The audio embedding after relu at row `n`, feature `e`: `max (⟨aud n, Wa e⟩ + ba e) 0`. -/
theorem v7_at (n : Fin 2560) (e : Fin 512) :
    val_main_v7 (F := Ideal) a0 a2 a3 (ix2 n e)
      = max ((∑ k : Fin 128, val_main_v0 (F := Ideal) a0 (ix2 n k) * a2 (ix2 e k)) + a3 (ix1 e))
          (Ideal.ofBits .f32 0x00000000#32) := by
  show max (val_main_v3 (F := Ideal) a0 a2 (ix2 n e) + val_main_v5 (F := Ideal) a3 (ix2 n e))
      (val_main_call0_v0 (F := Ideal) (ix2 n e)) = _
  refine congrArg₂ max (congrArg₂ (· + ·) ?_ ?_) ?_
  · rw [val_main_v3_apply]
    refine Finset.sum_congr rfl fun k _ => ?_
    rw [val_main_v2_apply]
    exact congrArg₂ (· * ·) (congrArg _ (by idx2)) (congrArg a2 (by idx2))
  · rw [val_main_v5_apply, val_main_v4_apply]
    exact congrArg a3 (by idx1)
  · rw [val_main_call0_v0_apply]; rfl

/-- The audio score of row `n`, position `s`, is the specification's `scoreArr`. -/
theorem v14_at (n : Fin 2560) (s : Fin 49) :
    val_main_v14 (F := Ideal) a0 a2 a3 a6 (ix2 n s)
      = Cert.Attn.scoreArr (val_main_v0 (F := Ideal) a0) a2 a3 a6 n s := by
  rw [val_main_v14_apply]
  show _ = ∑ e : Fin 512, max ((∑ k : Fin 128, val_main_v0 (F := Ideal) a0 (ix2 n k) * a2 (ix2 e k)) + a3 (ix1 e))
      (Ideal.ofBits .f32 0x00000000#32) * a6 (ix2 s e)
  refine Finset.sum_congr rfl fun e _ => ?_
  rw [val_main_v13_apply, ← v7_at a0 a2 a3 n e]
  exact congrArg₂ (· * ·) (congrArg _ (by idx2)) (congrArg a6 (by idx2))

/-! ## The visual side and the logits -/

/-- The visual embedding after relu at row `n`, position `s`, feature `e`: `max (⟨vis n s, Wv e⟩ + bv e) 0`. -/
theorem v12_at (n : Fin 2560) (s : Fin 49) (e : Fin 512) :
    val_main_v12 (F := Ideal) a1 a4 a5 (ix3 n s e)
      = max ((∑ d : Fin 512, val_main_v1 (F := Ideal) a1 (ix3 n s d) * a4 (ix2 e d)) + a5 (ix1 e))
          (Ideal.ofBits .f32 0x00000000#32) := by
  show max (val_main_v8 (F := Ideal) a1 a4 (ix3 n s e) + val_main_v10 (F := Ideal) a5 (ix3 n s e))
      (val_main_call1_v0 (F := Ideal) (ix3 n s e)) = _
  refine congrArg₂ max (congrArg₂ (· + ·) ?_ ?_) ?_
  · rw [val_main_v8_apply]
    refine Finset.sum_congr rfl fun d _ => ?_
    exact congrArg₂ (· * ·) (congrArg _ (by idx3)) (congrArg a4 (by idx2))
  · rw [val_main_v10_apply, val_main_v9_apply]
    exact congrArg a5 (by idx1)
  · rw [val_main_call1_v0_apply]; rfl

/-- The visual score of row `n`, position `s`, against attention row `f`: `∑ e, relu(…) · Av f e`. -/
theorem v15_at (n : Fin 2560) (s f : Fin 49) :
    val_main_v15 (F := Ideal) a1 a4 a5 a7 (ix3 n s f)
      = ∑ e : Fin 512, max ((∑ d : Fin 512, val_main_v1 (F := Ideal) a1 (ix3 n s d) * a4 (ix2 e d)) + a5 (ix1 e))
          (Ideal.ofBits .f32 0x00000000#32) * a7 (ix2 f e) := by
  rw [val_main_v15_apply]
  refine Finset.sum_congr rfl fun e _ => ?_
  rw [← v12_at a1 a4 a5 n s e]
  exact congrArg₂ (· * ·) (congrArg _ (by idx3)) (congrArg a7 (by idx2))

/-- The hyperbolic tangent of the audio score plus the visual score, at row `n`, position `s`, attention row `f`. -/
theorem v19_at (n : Fin 2560) (s f : Fin 49) :
    val_main_v19 (F := Ideal) a0 a1 a2 a3 a4 a5 a6 a7 (ix3 n s f)
      = Ideal.tanh (val_main_v14 (F := Ideal) a0 a2 a3 a6 (ix2 n s) + val_main_v15 (F := Ideal) a1 a4 a5 a7 (ix3 n s f)) := by
  show Ideal.tanh (val_main_v17 (F := Ideal) a0 a2 a3 a6 (ix3 n s f) + val_main_v15 (F := Ideal) a1 a4 a5 a7 (ix3 n s f)) = _
  rw [val_main_v17_apply, val_main_v16_apply]
  exact congrArg (fun x => Ideal.tanh (x + _)) (congrArg _ (by idx2))

/-- The logit of row `n`, position `s`, is the specification's `logit` of that position's features and audio score. -/
theorem v20_at (n : Fin 2560) (s : Fin 49) :
    val_main_v20 (F := Ideal) a0 a1 a2 a3 a4 a5 a6 a7 a8 (ix3 n s 0)
      = Cert.Attn.logit (fun d => val_main_v1 (F := Ideal) a1 (ix3 n s d))
          (Cert.Attn.scoreArr (val_main_v0 (F := Ideal) a0) a2 a3 a6 n s) (fun e d => a4 (ix2 e d)) (fun e => a5 (ix1 e))
          (fun f e => a7 (ix2 f e)) (fun f => a8 (ix2 0 f)) := by
  rw [val_main_v20_apply]
  unfold Cert.Attn.logit
  refine Finset.sum_congr rfl fun f _ => ?_
  rw [← v14_at a0 a2 a3 a6 n s, ← v15_at a1 a4 a5 a7 n s f, ← v19_at a0 a1 a2 a3 a4 a5 a6 a7 n s f]
  exact congrArg₂ (· * ·) (congrArg _ (by idx3)) (congrArg a8 (by idx2))

/-! ## The softmax over positions -/

/-- The maximum over the positions of row `n`'s logits, folded from the f32 `−∞` pattern. -/
theorem v21_at (n : Fin 2560) :
    val_main_v21 (F := Ideal) a0 a1 a2 a3 a4 a5 a6 a7 a8 (ix2 n 0)
      = (Finset.univ : Finset (Fin 49)).fold max (Ideal.ofBits .f32 0xFF800000#32)
          (fun s => val_main_v20 (F := Ideal) a0 a1 a2 a3 a4 a5 a6 a7 a8 (ix3 n s 0)) := by
  unfold val_main_v21
  generalize val_main_v20 (F := Ideal) a0 a1 a2 a3 a4 a5 a6 a7 a8 = y
  refine (Host.reduce_eq_fold_single (FloatOps.maximumf (F := Ideal) (φ := .f32)) y (val_main_cst (F := Ideal))
    reducesTo_S2560x49x1_S2560x1_d1 (by decide) h_S_ (ix2 n 0)).trans ?_
  show (Finset.univ : Finset (Fin 49)).fold max (Ideal.ofBits .f32 0xFF800000#32) _ = _
  refine Finset.fold_congr fun s _ => ?_
  exact congrArg y (by idx3)

/-- Taking the maximum with `−∞` once more changes nothing: a fold of `max` is at least the value it starts from. -/
theorem max_fold_max (b : EReal) (f : Fin 49 → EReal) :
    max b ((Finset.univ : Finset (Fin 49)).fold max b f) = (Finset.univ : Finset (Fin 49)).fold max b f :=
  max_eq_right ((Finset.le_fold_max b).2 (Or.inl le_rfl))

/-- The row maximum the softmax subtracts is the specification's `logitMax` of row `n`. -/
theorem v23_at (n : Fin 2560) :
    val_main_v23 (F := Ideal) a0 a1 a2 a3 a4 a5 a6 a7 a8 (ix2 n 0)
      = (Finset.univ : Finset (Fin 49)).fold max (Ideal.ofBits .f32 0xFF800000#32)
          (fun s => val_main_v20 (F := Ideal) a0 a1 a2 a3 a4 a5 a6 a7 a8 (ix3 n s 0)) := by
  show max (val_main_v22 (F := Ideal) (ix2 n 0)) (val_main_v21 (F := Ideal) a0 a1 a2 a3 a4 a5 a6 a7 a8 (ix2 n 0)) = _
  rw [v21_at, val_main_v22_apply]
  exact max_fold_max _ _

/-- Row `n`'s visual features, by position and feature. -/
abbrev visRow (n : Fin 2560) : Fin 49 → Fin 512 → EReal := fun s d => val_main_v1 (F := Ideal) a1 (ix3 n s d)
/-- Row `n`'s audio scores, by position. -/
abbrev audRow (n : Fin 2560) : Fin 49 → EReal := fun s => Cert.Attn.scoreArr (val_main_v0 (F := Ideal) a0) a2 a3 a6 n s
/-- The visual embedding's weights, by output and input feature. -/
abbrev wvM : Fin 512 → Fin 512 → EReal := fun e d => a4 (ix2 e d)
/-- The visual embedding's bias. -/
abbrev bvV : Fin 512 → EReal := fun e => a5 (ix1 e)
/-- The visual attention matrix. -/
abbrev avM : Fin 49 → Fin 512 → EReal := fun f e => a7 (ix2 f e)
/-- The final attention row. -/
abbrev afV : Fin 49 → EReal := fun f => a8 (ix2 0 f)

/-- The shifted exponential of row `n`, position `s`: `exp (ℓ s − max ℓ)`. -/
theorem v27_at (n : Fin 2560) (s : Fin 49) :
    val_main_v27 (F := Ideal) a0 a1 a2 a3 a4 a5 a6 a7 a8 (ix3 n s 0) = Cert.Attn.expShift (visRow a1 n) (audRow a0 a2 a3 a6 n) (wvM a4) (bvV a5) (avM a7) (afV a8) s := by
  show Ideal.exp (val_main_v20 (F := Ideal) a0 a1 a2 a3 a4 a5 a6 a7 a8 (ix3 n s 0) - val_main_v25 (F := Ideal) a0 a1 a2 a3 a4 a5 a6 a7 a8 (ix3 n s 0))
    = Ideal.exp (Cert.Attn.logit (visRow a1 n s) (audRow a0 a2 a3 a6 n s) (wvM a4) (bvV a5) (avM a7) (afV a8)
        - Cert.Attn.logitMax (visRow a1 n) (audRow a0 a2 a3 a6 n) (wvM a4) (bvV a5) (avM a7) (afV a8))
  rw [val_main_v25_apply, val_main_v24_apply, show idx_main_v24 (idx_main_v25 (ix3 n s 0)) = ix2 n 0 from by idx2,
    v23_at a0 a1 a2 a3 a4 a5 a6 a7 a8 n, v20_at a0 a1 a2 a3 a4 a5 a6 a7 a8 n s]
  refine congrArg (fun x => Ideal.exp (_ - x)) ?_
  exact Finset.fold_congr fun s' _ => v20_at a0 a1 a2 a3 a4 a5 a6 a7 a8 n s'

/-- The softmax denominator of row `n`: the sum of the shifted exponentials over the positions. -/
theorem v28_at (n : Fin 2560) :
    val_main_v28 (F := Ideal) a0 a1 a2 a3 a4 a5 a6 a7 a8 (ix2 n 0) = ∑ s : Fin 49, Cert.Attn.expShift (visRow a1 n) (audRow a0 a2 a3 a6 n) (wvM a4) (bvV a5) (avM a7) (afV a8) s := by
  rw [val_main_v28_apply]
  show Ideal.ofBits .f32 0x00000000#32 + _ = _
  rw [Ideal.ofBits_zero_f32, zero_add]
  refine Finset.sum_congr rfl fun s _ => ?_
  rw [← v27_at a0 a1 a2 a3 a4 a5 a6 a7 a8 n s]
  exact congrArg _ (by idx3)

/-- The softmax weight of row `n`, position `s`. -/
theorem v31_at (n : Fin 2560) (s : Fin 49) :
    val_main_v31 (F := Ideal) a0 a1 a2 a3 a4 a5 a6 a7 a8 (ix3 n s 0) = Cert.Attn.weight (visRow a1 n) (audRow a0 a2 a3 a6 n) (wvM a4) (bvV a5) (avM a7) (afV a8) s := by
  show Ideal.div (val_main_v27 (F := Ideal) a0 a1 a2 a3 a4 a5 a6 a7 a8 (ix3 n s 0)) (val_main_v30 (F := Ideal) a0 a1 a2 a3 a4 a5 a6 a7 a8 (ix3 n s 0)) = _
  rw [val_main_v30_apply, val_main_v29_apply, show idx_main_v29 (idx_main_v30 (ix3 n s 0)) = ix2 n 0 from by idx2,
    v28_at a0 a1 a2 a3 a4 a5 a6 a7 a8 n, v27_at a0 a1 a2 a3 a4 a5 a6 a7 a8 n s]
  rfl

/-! ## The attended rows and the result -/

/-- Feature `d` of attended row `n` is the specification's `outArr`. -/
theorem v33_at (n : Fin 2560) (d : Fin 512) :
    val_main_v33 (F := Ideal) a0 a1 a2 a3 a4 a5 a6 a7 a8 (ix3 n 0 d)
      = Cert.Attn.outArr (val_main_v0 (F := Ideal) a0) (val_main_v1 (F := Ideal) a1) a2 a3 a4 a5 a6 a7 a8 n d := by
  rw [val_main_v33_apply]
  show _ = ∑ s : Fin 49, Cert.Attn.weight (visRow a1 n) (audRow a0 a2 a3 a6 n) (wvM a4) (bvV a5) (avM a7) (afV a8) s * val_main_v1 (F := Ideal) a1 (ix3 n s d)
  refine Finset.sum_congr rfl fun s _ => ?_
  rw [val_main_v32_apply, ← v31_at a0 a1 a2 a3 a4 a5 a6 a7 a8 n s]
  refine congrArg₂ (· * ·) (congrArg _ ?_) (congrArg _ (by idx3))
  funext a
  match a with
  | ⟨0, _⟩ => exact Fin.ext (by show ((n.val * 1 + 0) * 49 + s.val) / 49 = n.val; have := s.isLt; omega)
  | ⟨1, _⟩ => exact Fin.ext (by show ((n.val * 1 + 0) * 49 + s.val) / 1 % 49 = s.val; have := s.isLt; omega)
  | ⟨2, _⟩ => rfl

/-- Entry (b, t, d) of the reshaped output is feature `d` of attended row `b · 10 + t`. -/
theorem v34_at (b : Fin 256) (t : Fin 10) (d : Fin 512) :
    val_main_v34 (F := Ideal) a0 a1 a2 a3 a4 a5 a6 a7 a8 (ix3 b t d)
      = val_main_v33 (F := Ideal) a0 a1 a2 a3 a4 a5 a6 a7 a8 (ix3 (Cert.Attn.rowOf b t) 0 d) := by
  rw [val_main_v34_apply]
  refine congrArg _ ?_
  funext a
  match a with
  | ⟨0, _⟩ => exact Fin.ext (by show ((b.val * 10 + t.val) * 512 + d.val) / 512 = b.val * 10 + t.val; have := d.isLt; omega)
  | ⟨1, _⟩ => rfl
  | ⟨2, _⟩ => exact Fin.ext (by show ((b.val * 10 + t.val) * 512 + d.val) % 512 = d.val; have := d.isLt; omega)

/-- The reference program computes the specification's `result` of the flattened audio and visual arrays. -/
theorem ref_result :
    val_main_v34 (F := Ideal) a0 a1 a2 a3 a4 a5 a6 a7 a8
      = Cert.Attn.result (val_main_v0 (F := Ideal) a0) (val_main_v1 (F := Ideal) a1) a2 a3 a4 a5 a6 a7 a8 := by
  funext i
  obtain ⟨b, t, d, rfl⟩ : ∃ (b : Fin 256) (t : Fin 10) (d : Fin 512), i = ix3 b t d := ⟨i 0, i 1, i 2, eq_ix3 i⟩
  rw [Cert.Attn.result_ix3, v34_at a0 a1 a2 a3 a4 a5 a6 a7 a8 b t d, v33_at a0 a1 a2 a3 a4 a5 a6 a7 a8 (Cert.Attn.rowOf b t) d]

end Cert.ReferenceIdeal.RefValue

end
-- ==== Proof.lean ====
/-
  Additive audio-visual attention: a two-kernel pipelined program against its plain reference, on the extended reals.

  For each of the 2560 batch-time rows the audio gives 49 scores `a s = ∑ e, relu (⟨aud, Wa e⟩ + ba e) · Aa s e`; each of the
  row's 49 spatial positions `s`, with features `v s`, gets the logit
  `ℓ s = ∑ f, tanh (a s + ∑ e, relu (⟨v s, Wv e⟩ + bv e) · Av f e) · Af f`; the output row is
  `∑ s, softmax(ℓ) s · v s`, the softmax taken as `exp (ℓ s − max ℓ) / ∑ exp (ℓ s' − max ℓ)` (Proof/Spec.lean).

  The kernel program computes the audio scores in a first region, 256 rows per grid point (Proof/ScoreBlock.lean: one
  block; Proof/ScoreArray.lean: the ten blocks tile the score array), flattens them to a column, and computes the
  attended rows in a second region, 64 rows per grid point, on the (row, position) pairs flattened to 3136 rows
  (Proof/AttendBlock.lean: one block; Proof/AttendArray.lean: the forty blocks tile the output); the weights reach the
  kernels transposed, one of them in a narrower format, which changes nothing at exact values (Proof/Entry.lean). The
  reference computes the same rows with whole-array contractions (Proof/RefValue.lean). Both are the one function
  `result` of the flattened inputs and the weights: every difference between the two programs is a tiling, a
  flattening, a transposed copy or the order of a finite sum's terms, and no law that needs finiteness is used, so the
  precondition is never opened. The kernel's idealization rewrote no operation, so its sanctioning claim is trivial.
-/
import proofs.«172738_j79972291051647_2_alg».proof.Defs
import proofs.«172738_j79972291051647_2_alg».proof.Proof.Gen.Kernel
import proofs.«172738_j79972291051647_2_alg».proof.Proof.Gen.Kernel.Skeleton
import proofs.«172738_j79972291051647_2_alg».proof.Proof.Gen.Kernel.Launch
import proofs.«172738_j79972291051647_2_alg».proof.Proof.Gen.Kernel.Points
import proofs.«172738_j79972291051647_2_alg».proof.Proof.Gen.Kernel.Frame
import proofs.«172738_j79972291051647_2_alg».proof.Proof.Gen.KernelIdeal
import proofs.«172738_j79972291051647_2_alg».proof.Proof.Gen.KernelIdeal.Skeleton
import proofs.«172738_j79972291051647_2_alg».proof.Proof.Gen.KernelIdeal.Launch
import proofs.«172738_j79972291051647_2_alg».proof.Proof.Gen.KernelIdeal.Points
import proofs.«172738_j79972291051647_2_alg».proof.Proof.Gen.KernelIdeal.Frame
import proofs.«172738_j79972291051647_2_alg».proof.Proof.Gen.ReferenceIdeal
import proofs.«172738_j79972291051647_2_alg».proof.Proof.Gen.ReferenceIdeal.Run
import proofs.«172738_j79972291051647_2_alg».proof.Proof.Gen.ReferenceIdeal.Read
import proofs.«172738_j79972291051647_2_alg».proof.Proof.Gen.Pre_finite_inputs
import proofs.«172738_j79972291051647_2_alg».proof.Proof.KernelValue
import proofs.«172738_j79972291051647_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result buffer at `result` of the flattened
    audio and visual inputs and the weights: the kernel by its run over the two regions, the reference by its run
    read one operation at a time. -/
theorem algebraic : Cert.algebraic_KernelIdeal_ReferenceIdeal := by
  intro m ρ m' ρ' _ hagree
  refine ⟨fun c => Cert.KernelIdeal.Arrays.resultOf m c, Cert.KernelIdeal.Arrays.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.ref_result,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
